-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x64 : Shape := ⟨3, ![16, 2048, 64]⟩
abbrev S64x128 : Shape := ⟨2, ![64, 128]⟩
abbrev S128 : Shape := ⟨1, ![128]⟩
abbrev S_ : Shape := ⟨0, ![]⟩

class Facts : Prop where
  bcast_S_S16x2048x64 : S_.BroadcastsInDim S16x2048x64 (![] : Fin 0 → Fin S16x2048x64.rank)
  reducesTo_S16x2048x64_S_d0_1_2 : S16x2048x64.ReducesTo [0, 1, 2] S_
  h_S_ : 0 < S_.numel
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128 .f32) (main_arg5 : FVec F S64x128 .f32) (main_arg6 : FVec F S128 .f32) (main_v13 : IVec S_ 1) (main_v16 : IVec S64x128 1) : IVec S_ 1 :=
  let main_c_5 : IVec S_ 1 := constantI S_ 1 1#1
  let main_v17 : IVec S_ 1 := (fun x v => Host.reduce IntOp.andi x v reducesTo_S64x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S64x128 .f32 := Host.absf main_arg5
  let main_cst_8 : FVec F S_ .f32 := constant S_ .f32 0x7F800000#32
  let main_v25 : FVec F S64x128 .f32 := broadcastInDim S64x128 ![] bcast_S_S64x128 main_cst_8
  let main_v26 : IVec S64x128 1 := cmpf .olt main_v24 main_v25
  let main_c_9 : IVec S_ 1 := constantI S_ 1 1#1
  let main_v27 : IVec S_ 1 := (fun x v => Host.reduce IntOp.andi x v reducesTo_S64x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S16x2048x64 .f32) (main_arg1 : FVec F S64x128 .f32) (main_arg2 : FVec F S128 .f32) (main_arg3 : FVec F S64x128 .f32) (main_arg4 : FVec F S128 .f32) (main_arg5 : FVec F S64x128 .f32) (main_arg6 : FVec F S128 .f32) : IVec S_ 1 :=
  let main_v0 : FVec F S16x2048x64 .f32 := Host.absf main_arg0
  let main_cst : FVec F S_ .f32 := constant S_ .f32 0x7F800000#32
  let main_v1 : FVec F S16x2048x64 .f32 := broadcastInDim S16x2048x64 ![] bcast_S_S16x2048x64 main_cst
  let main_v2 : IVec S16x2048x64 1 := cmpf .olt main_v0 main_v1
  let main_c : IVec S_ 1 := constantI S_ 1 1#1
  let main_v3 : IVec S_ 1 := (fun x v => Host.reduce IntOp.andi x v reducesTo_S16x2048x64_S_d0_1_2 h_S_) main_v2 main_c
  let main_v4 : FVec F S64x128 .f32 := Host.absf main_arg1
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S64x128 .f32 := Host.absf main_arg3
  let main_cst_4 : FVec F S_ .f32 := constant S_ .f32 0x7F800000#32
  let main_v15 : FVec F S64x128 .f32 := broadcastInDim S64x128 ![] bcast_S_S64x128 main_cst_4
  let main_v16 : IVec S64x128 1 := cmpf .olt main_v14 main_v15
  fn_part1 (F := F) main_arg4 main_arg5 main_arg6 main_v13 main_v16
-- ==== Kernel.lean ====
abbrev S16x2048x64 : Shape := ⟨3, ![16, 2048, 64]⟩
abbrev S64x128 : Shape := ⟨2, ![64, 128]⟩
abbrev S128 : Shape := ⟨1, ![128]⟩
abbrev S16x2048x128 : Shape := ⟨3, ![16, 2048, 128]⟩
abbrev S1x2048x64 : Shape := ⟨3, ![1, 2048, 64]⟩
abbrev S1x512x128 : Shape := ⟨3, ![1, 512, 128]⟩
abbrev S2048x128 : Shape := ⟨2, ![2048, 128]⟩
abbrev S2048x64 : Shape := ⟨2, ![2048, 64]⟩
abbrev S1x128 : Shape := ⟨2, ![1, 128]⟩
abbrev S1x512x64 : Shape := ⟨3, ![1, 512, 64]⟩
abbrev S512x64 : Shape := ⟨2, ![512, 64]⟩
abbrev S512x128 : Shape := ⟨2, ![512, 128]⟩
abbrev S512x2048 : Shape := ⟨2, ![512, 2048]⟩
abbrev S512 : Shape := ⟨1, ![512]⟩
abbrev S512x1 : Shape := ⟨2, ![512, 1]⟩

abbrev nBuf : Space → Nat
  | .hbm => 8
  | .vmem => 12
  | .smem => 0
  | _ => 0

abbrev bufTy : (tb : Table) → Fin (tcTables nBuf tb) → BufTy
  | .hbm, ⟨0, _⟩ => ⟨S16x2048x64, .f32⟩
  | .hbm, ⟨1, _⟩ => ⟨S64x128, .f32⟩
  | .hbm, ⟨2, _⟩ => ⟨S128, .f32⟩
  | .hbm, ⟨3, _⟩ => ⟨S64x128, .f32⟩
  | .hbm, ⟨4, _⟩ => ⟨S128, .f32⟩
  | .hbm, ⟨5, _⟩ => ⟨S64x128, .f32⟩
  | .hbm, ⟨6, _⟩ => ⟨S128, .f32⟩
  | .hbm, ⟨7, _⟩ => ⟨S16x2048x128, .f32⟩
  | .local _ .vmem, ⟨0, _⟩ => ⟨S1x2048x64, .f32⟩
  | .local _ .vmem, ⟨1, _⟩ => ⟨S1x2048x64, .f32⟩
  | .local _ .vmem, ⟨2, _⟩ => ⟨S64x128, .f32⟩
  | .local _ .vmem, ⟨3, _⟩ => ⟨S128, .f32⟩
  | .local _ .vmem, ⟨4, _⟩ => ⟨S64x128, .f32⟩
  | .local _ .vmem, ⟨5, _⟩ => ⟨S128, .f32⟩
  | .local _ .vmem, ⟨6, _⟩ => ⟨S64x128, .f32⟩
  | .local _ .vmem, ⟨7, _⟩ => ⟨S128, .f32⟩
  | .local _ .vmem, ⟨8, _⟩ => ⟨S1x512x128, .f32⟩
  | .local _ .vmem, ⟨9, _⟩ => ⟨S1x512x128, .f32⟩
  | .local _ .vmem, ⟨10, _⟩ => ⟨S2048x128, .bf16⟩
  | .local _ .vmem, ⟨11, _⟩ => ⟨S2048x128, .bf16⟩
  | _, _ => ⟨S16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨2, ![16, 4], ![false, false]⟩

def k0_mult1 (i : grid0.Coords) : BitVec 32 :=
  let arg1 : BitVec 32 := BitVec.ofNat 32 (i 1).val
  let c512_i32 : BitVec 32 := 512#32
  let v3 : BitVec 32 := Scalar.muli arg1 c512_i32
  v3
def k0_off1 (i : grid0.Coords) : Fin 3 → Nat :=
  let c0 : Index := 0#32
  let arg1 : BitVec 32 := BitVec.ofNat 32 (i 1).val
  let c512_i32 : BitVec 32 := 512#32
  let v3 : BitVec 32 := Scalar.muli arg1 c512_i32
  let v4 : BitVec 32 := v3
  let v5 : Index := Scalar.indexCast v4
  let c0_1 : Index := 0#32
  ![0, v5.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2048x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S64x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

class Facts₀ : Prop where
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  inb_S64x128_S64x128_0_0 : ∀ a, (![0, 0] : Fin 2 → Nat) a + S64x128.size a ≤ S64x128.size a
  h_S64x128 : 0 < S64x128.numel
  inb_S128_S128_0 : ∀ a, (![0] : Fin 1 → Nat) a + S128.size a ≤ S128.size a
  h_S128 : 0 < S128.numel
  shapeCasts_S128_S1x128 : S128.ShapeCasts S1x128
  broadcasts_S1x128_S2048x128 : S1x128.Broadcasts S2048x128
  bitsLt_bf16_f32 : FTy.bits .bf16 < FTy.bits .f32
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  packedbf16_S2048x128_S2048x128_0_0 : (Rect.unit (s := S2048x128) ![0, 0] S2048x128.size inb_S2048x128_S2048x128_0_0).PackedRows (EltTy.packing .bf16)
  h_S1x512x64 : 0 < S1x512x64.numel
  shapeCasts_S1x512x64_S512x64 : S1x512x64.ShapeCasts S512x64
  broadcasts_S1x128_S512x128 : S1x128.Broadcasts S512x128
  reduces_S512x2048_S512 : S512x2048.Reduces [1] S512
  shapeCasts_S512_S512x1 : S512.ShapeCasts S512x1
  broadcasts_S512x1_S512x2048 : S512x1.Broadcasts S512x2048
  inb_S1x512x128_S1x512x128_0_0_0 : ∀ a, (![0, 0, 0] : Fin 3 → Nat) a + S1x512x128.size a ≤ S1x512x128.size a
  h_S1x512x128 : 0 < S1x512x128.numel
  shapeCasts_S1x512x128_S512x128 : S1x512x128.ShapeCasts S512x128
  shapeCasts_S512x128_S1x512x128 : S512x128.ShapeCasts S1x512x128
  dot_S2048x64_S64x128_S2048x128_1_0_0_1_n_n_wf : DotDims.WF S2048x64 S64x128 S2048x128 [1] [0] [0] [1] [] []
  dot_S512x64_S64x128_S512x128_1_0_0_1_n_n_wf : DotDims.WF S512x64 S64x128 S512x128 [1] [0] [0] [1] [] []
  dot_S512x128_S2048x128_S512x2048_1_1_0_0_n_n_wf : DotDims.WF S512x128 S2048x128 S512x2048 [1] [1] [0] [0] [] []
  dot_S512x2048_S2048x128_S512x128_1_0_0_1_n_n_wf : DotDims.WF S512x2048 S2048x128 S512x128 [1] [0] [0] [1] [] []
  hrank0 : 0 < grid0.rank
  k0_mult1_dvd : ∀ i : grid0.Coords, 512 ∣ (k0_mult1 i).toNat
  k0_off1_inb : ∀ i : grid0.Coords, ∀ a, (k0_off1 i) a + S1x512x64.size a ≤ S1x2048x64.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x64.size a ≤ S16x2048x64.size a
  hwx0_0 : ∀ i : grid0.Coords, EltTy.bits .f32 = 32 ∨ (Rect.block (s := S16x2048x64) S1x2048x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x128.size a ≤ S64x128.size a
  hwx0_3 : ∀ i : grid0.Coords, EltTy.bits .f32 = 32 ∨ (Rect.block (s := S64x128) S64x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x128.size a ≤ S64x128.size a
  hwx0_5 : ∀ i : grid0.Coords, EltTy.bits .f32 = 32 ∨ (Rect.block (s := S64x128) S64x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x512x128.size a ≤ S16x2048x128.size a
  hwx0_7 : ∀ i : grid0.Coords, EltTy.bits .f32 = 32 ∨ (Rect.block (s := S16x2048x128) S1x512x128.size (cc0_transform_7 i) (hinb0_7 i)).WholeWords (EltTy.packing .f32)

variable [Facts₀]

def dot_S2048x64_S64x128_S2048x128_1_0_0_1_n_n : DotDims S2048x64 S64x128 S2048x128 where
  lhsContracting := [1]
  rhsContracting := [0]
  lhsNonContracting := [0]
  rhsNonContracting := [1]
  lhsBatch := []
  rhsBatch := []
  wf := dot_S2048x64_S64x128_S2048x128_1_0_0_1_n_n_wf
def dot_S512x64_S64x128_S512x128_1_0_0_1_n_n : DotDims S512x64 S64x128 S512x128 where
  lhsContracting := [1]
  rhsContracting := [0]
  lhsNonContracting := [0]
  rhsNonContracting := [1]
  lhsBatch := []
  rhsBatch := []
  wf := dot_S512x64_S64x128_S512x128_1_0_0_1_n_n_wf
def dot_S512x128_S2048x128_S512x2048_1_1_0_0_n_n : DotDims S512x128 S2048x128 S512x2048 where
  lhsContracting := [1]
  rhsContracting := [1]
  lhsNonContracting := [0]
  rhsNonContracting := [0]
  lhsBatch := []
  rhsBatch := []
  wf := dot_S512x128_S2048x128_S512x2048_1_1_0_0_n_n_wf
def dot_S512x2048_S2048x128_S512x128_1_0_0_1_n_n : DotDims S512x2048 S2048x128 S512x128 where
  lhsContracting := [1]
  rhsContracting := [0]
  lhsNonContracting := [0]
  rhsNonContracting := [1]
  lhsBatch := []
  rhsBatch := []
  wf := dot_S512x2048_S2048x128_S512x128_1_0_0_1_n_n_wf

abbrev win0_0 : Pipeline.Window sig grid0 :=
  Pipeline.Window.ofSpec (Memref.whole main_arg0) S1x2048x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S64x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v0) S1x512x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S16x2048x64 : Shape := ⟨3, ![16, 2048, 64]⟩
abbrev S64x128 : Shape := ⟨2, ![64, 128]⟩
abbrev S128 : Shape := ⟨1, ![128]⟩
abbrev S16x2048x128 : Shape := ⟨3, ![16, 2048, 128]⟩
abbrev S1x1x128 : Shape := ⟨3, ![1, 1, 128]⟩
abbrev S_ : Shape := ⟨0, ![]⟩
abbrev S16x2048x2048 : Shape := ⟨3, ![16, 2048, 2048]⟩
abbrev S16x2048 : Shape := ⟨2, ![16, 2048]⟩
abbrev S16x2048x1 : Shape := ⟨3, ![16, 2048, 1]⟩

abbrev nBuf : Space → Nat
  | .hbm => 48
  | .vmem => 0
  | .smem => 0
  | _ => 0

abbrev bufTy : (tb : Table) → Fin (tcTables nBuf tb) → BufTy
  | .hbm, ⟨0, _⟩ => ⟨S16x2048x64, .f32⟩
  | .hbm, ⟨1, _⟩ => ⟨S64x128, .f32⟩
  | .hbm, ⟨2, _⟩ => ⟨S128, .f32⟩
  | .hbm, ⟨3, _⟩ => ⟨S64x128, .f32⟩
  | .hbm, ⟨4, _⟩ => ⟨S128, .f32⟩
  | .hbm, ⟨5, _⟩ => ⟨S64x128, .f32⟩
  | .hbm, ⟨6, _⟩ => ⟨S128, .f32⟩
  | .hbm, ⟨7, _⟩ => ⟨S16x2048x128, .f32⟩
  | .hbm, ⟨8, _⟩ => ⟨S1x1x128, .f32⟩
  | .hbm, ⟨9, _⟩ => ⟨S16x2048x128, .f32⟩
  | .hbm, ⟨10, _⟩ => ⟨S16x2048x128, .f32⟩
  | .hbm, ⟨11, _⟩ => ⟨S_, .f32⟩
  | .hbm, ⟨12, _⟩ => ⟨S16x2048x128, .f32⟩
  | .hbm, ⟨13, _⟩ => ⟨S16x2048x128, .f32⟩
  | .hbm, ⟨14, _⟩ => ⟨S16x2048x128, .f32⟩
  | .hbm, ⟨15, _⟩ => ⟨S1x1x128, .f32⟩
  | .hbm, ⟨16, _⟩ => ⟨S16x2048x128, .f32⟩
  | .hbm, ⟨17, _⟩ => ⟨S16x2048x128, .f32⟩
  | .hbm, ⟨18, _⟩ => ⟨S_, .f32⟩
  | .hbm, ⟨19, _⟩ => ⟨S16x2048x128, .f32⟩
  | .hbm, ⟨20, _⟩ => ⟨S16x2048x128, .f32⟩
  | .hbm, ⟨21, _⟩ => ⟨S16x2048x128, .f32⟩
  | .hbm, ⟨22, _⟩ => ⟨S1x1x128, .f32⟩
  | .hbm, ⟨23, _⟩ => ⟨S16x2048x128, .f32⟩
  | .hbm, ⟨24, _⟩ => ⟨S16x2048x128, .f32⟩
  | .hbm, ⟨25, _⟩ => ⟨S_, .f32⟩
  | .hbm, ⟨26, _⟩ => ⟨S16x2048x128, .f32⟩
  | .hbm, ⟨27, _⟩ => ⟨S16x2048x128, .f32⟩
  | .hbm, ⟨28, _⟩ => ⟨S_, .f32⟩
  | .hbm, ⟨29, _⟩ => ⟨S_, .f32⟩
  | .hbm, ⟨30, _⟩ => ⟨S16x2048x2048, .f32⟩
  | .hbm, ⟨31, _⟩ => ⟨S16x2048x2048, .f32⟩
  | .hbm, ⟨32, _⟩ => ⟨S16x2048x2048, .f32⟩
  | .hbm, ⟨33, _⟩ => ⟨S_, .f32⟩
  | .hbm, ⟨34, _⟩ => ⟨S16x2048, .f32⟩
  | .hbm, ⟨35, _⟩ => ⟨S_, .f32⟩
  | .hbm, ⟨36, _⟩ => ⟨S16x2048, .f32⟩
  | .hbm, ⟨37, _⟩ => ⟨S16x2048, .f32⟩
  | .hbm, ⟨38, _⟩ => ⟨S16x2048x1, .f32⟩
  | .hbm, ⟨39, _⟩ => ⟨S16x2048x2048, .f32⟩
  | .hbm, ⟨40, _⟩ => ⟨S16x2048x2048, .f32⟩
  | .hbm, ⟨41, _⟩ => ⟨S16x2048x2048, .f32⟩
  | .hbm, ⟨42, _⟩ => ⟨S_, .f32⟩
  | .hbm, ⟨43, _⟩ => ⟨S16x2048, .f32⟩
  | .hbm, ⟨44, _⟩ => ⟨S16x2048x1, .f32⟩
  | .hbm, ⟨45, _⟩ => ⟨S16x2048x2048, .f32⟩
  | .hbm, ⟨46, _⟩ => ⟨S16x2048x2048, .f32⟩
  | .hbm, ⟨47, _⟩ => ⟨S16x2048x128, .f32⟩
  | _, _ => ⟨S16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_call0_cst : Ref sig .tc := ⟨.hbm, 11, rfl⟩
abbrev main_call0_v0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_call1_cst : Ref sig .tc := ⟨.hbm, 18, rfl⟩
abbrev main_call1_v0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_call2_cst : Ref sig .tc := ⟨.hbm, 25, rfl⟩
abbrev main_call2_v0 : Ref sig .tc := ⟨.hbm, 26, rfl⟩
abbrev main_v14 : Ref sig .tc := ⟨.hbm, 27, rfl⟩
abbrev main_cst : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_0 : Ref sig .tc := ⟨.hbm, 33, rfl⟩
abbrev main_v19 : Ref sig .tc := ⟨.hbm, 34, rfl⟩
abbrev main_cst_1 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_2 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩

abbrev nD : Nat := 1
abbrev τ : Topo := Topo.v7x

variable {F : FTy → Type} [FloatOps F]

class Facts₀ : Prop where
  bcast_S128_S1x1x128_2 : S128.BroadcastsInDim S1x1x128 (![2] : Fin 1 → Fin S1x1x128.rank)
  bcast_S1x1x128_S16x2048x128_0_1_2 : S1x1x128.BroadcastsInDim S16x2048x128 (![0, 1, 2] : Fin 3 → Fin S16x2048x128.rank)
  bcast_S_S16x2048x128 : S_.BroadcastsInDim S16x2048x128 (![] : Fin 0 → Fin S16x2048x128.rank)
  bcast_S_S16x2048x2048 : S_.BroadcastsInDim S16x2048x2048 (![] : Fin 0 → Fin S16x2048x2048.rank)
  reducesTo_S16x2048x2048_S16x2048_d2 : S16x2048x2048.ReducesTo [2] S16x2048
  h_S_ : 0 < S_.numel
  bcast_S_S16x2048 : S_.BroadcastsInDim S16x2048 (![] : Fin 0 → Fin S16x2048.rank)
  bcast_S16x2048_S16x2048x1_0_1 : S16x2048.BroadcastsInDim S16x2048x1 (![0, 1] : Fin 2 → Fin S16x2048x1.rank)
  bcast_S16x2048x1_S16x2048x2048_0_1_2 : S16x2048x1.BroadcastsInDim S16x2048x2048 (![0, 1, 2] : Fin 3 → Fin S16x2048x2048.rank)
  dot_S16x2048x64_S64x128_S16x2048x128_2_0_01_1_n_n_wf : DotDims.WF S16x2048x64 S64x128 S16x2048x128 [2] [0] [0, 1] [1] [] []
  dot_S16x2048x128_S16x2048x128_S16x2048x2048_2_2_1_1_0_0_wf : DotDims.WF S16x2048x128 S16x2048x128 S16x2048x2048 [2] [2] [1] [1] [0] [0]
  dot_S16x2048x2048_S16x2048x128_S16x2048x128_2_1_1_2_0_0_wf : DotDims.WF S16x2048x2048 S16x2048x128 S16x2048x128 [2] [1] [1] [2] [0] [0]

variable [Facts₀]

def dot_S16x2048x64_S64x128_S16x2048x128_2_0_01_1_n_n : DotDims S16x2048x64 S64x128 S16x2048x128 where
  lhsContracting := [2]
  rhsContracting := [0]
  lhsNonContracting := [0, 1]
  rhsNonContracting := [1]
  lhsBatch := []
  rhsBatch := []
  wf := dot_S16x2048x64_S64x128_S16x2048x128_2_0_01_1_n_n_wf
def dot_S16x2048x128_S16x2048x128_S16x2048x2048_2_2_1_1_0_0 : DotDims S16x2048x128 S16x2048x128 S16x2048x2048 where
  lhsContracting := [2]
  rhsContracting := [2]
  lhsNonContracting := [1]
  rhsNonContracting := [1]
  lhsBatch := [0]
  rhsBatch := [0]
  wf := dot_S16x2048x128_S16x2048x128_S16x2048x2048_2_2_1_1_0_0_wf
def dot_S16x2048x2048_S16x2048x128_S16x2048x128_2_1_1_2_0_0 : DotDims S16x2048x2048 S16x2048x128 S16x2048x128 where
  lhsContracting := [2]
  rhsContracting := [1]
  lhsNonContracting := [1]
  rhsNonContracting := [2]
  lhsBatch := [0]
  rhsBatch := [0]
  wf := dot_S16x2048x2048_S16x2048x128_S16x2048x128_2_1_1_2_0_0_wf

class Facts : Prop extends Facts₀ where

variable [Facts]
-- ==== Proof.KernelPieces.lean ====
/-
  What one run of the kernel body leaves behind, as values of what it loaded.

  At the first query tile of a batch the body fills the key and value scratch buffers with the projected rows of the
  whole batch row of `x`, then computes the output tile from the tile's 512 input rows and the scratch it has just
  written; at the other tiles it stores nothing into the scratch and computes the tile from the scratch as it finds
  it.  The tile's input rows are a 512-row sub-rectangle of the batch row, at row offset 512 times the tile number.
-/
import proofs.«157915_j53687091200195_2_alg».proof.Proof.Gen.KernelIdeal.Frame
import Idealize.ShloMosaic.Lib.Pipeline.Value
import Idealize.ShloMosaic.Lib.Tactic

set_option maxRecDepth 16384

noncomputable section

namespace Cert.KernelIdeal.AttnPieces

open Cert.KernelIdeal Cert.KernelIdeal.Gen Idealize.ShloMosaic Idealize.ShloMosaic.TcCoe Idealize.SL.Sem Idealize.ShloMosaic.Tactic

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- The 512 input rows of query tile `i 1`: the batch row read through the tile's sub-rectangle. -/
abbrev tile (i : grid0.Coords) (x0 : Vec F S1x2048x64 .f32) : Vec F S1x512x64 .f32 :=
  View.ld x0 (Rect.unit (s := S1x2048x64) (k0_off1 i) S1x512x64.size (k0_off1_inb i))

/-- At a batch's first tile the key scratch ends holding the key payload of the batch row. -/
theorem sout_A_0 (c : Dev nD) (i : grid0.Coords) (arg2 : Memref sig .tc .vmem S1x2048x64 .f32) (harg2 : arg2.IsWhole) (arg3 : Memref sig .tc .vmem S64x128 .f32) (harg3 : arg3.IsWhole) (arg4 : Memref sig .tc .vmem S128 .f32) (harg4 : arg4.IsWhole) (arg5 : Memref sig .tc .vmem S64x128 .f32) (harg5 : arg5.IsWhole) (arg6 : Memref sig .tc .vmem S128 .f32) (harg6 : arg6.IsWhole) (arg7 : Memref sig .tc .vmem S64x128 .f32) (harg7 : arg7.IsWhole) (arg8 : Memref sig .tc .vmem S128 .f32) (harg8 : arg8.IsWhole) (arg9 : Memref sig .tc .vmem S1x512x128 .f32) (harg9 : arg9.IsWhole) (arg10 : Memref sig .tc .vmem S2048x128 .bf16) (harg10 : arg10.IsWhole) (arg11 : Memref sig .tc .vmem S2048x128 .bf16) (harg11 : arg11.IsWhole) (hc0 : cond0_0 i) (x0 : Vec F S1x2048x64 .f32) (x1 : Vec F S64x128 .f32) (x2 : Vec F S128 .f32) (x3 : Vec F S64x128 .f32) (x4 : Vec F S128 .f32) (x5 : Vec F S64x128 .f32) (x6 : Vec F S128 .f32) :
    sout0_A_0 c i arg2 harg2 arg3 harg3 arg4 harg4 arg5 harg5 arg6 harg6 arg7 harg7 arg8 harg8 arg9 harg9 arg10 harg10 arg11 harg11 hc0 x0 x1 x2 x3 x4 x5 x6 = k0_pay3 x0 x3 x4 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 hc0 x0 x1 x2 x3 x4 x5 x6)]
  unfold kernelRun0_A
  dsimp only
  sl_unfold_words
  rw [View.canon_unit_zero hz2]
  simp only [View.readAt_eq_ld, harg2.read_unread, harg3.read_unread, harg4.read_unread, harg5.read_unread, harg6.read_unread, harg7.read_unread, harg8.read_unread, View.ld_unit_zero (S := S1x2048x64) hz3, View.ld_unit_zero (S := S64x128) hz2, View.ld_unit_zero (S := S128) hz1]

/-- At a batch's first tile the value scratch ends holding the value payload of the batch row. -/
theorem sout_A_1 (c : Dev nD) (i : grid0.Coords) (arg2 : Memref sig .tc .vmem S1x2048x64 .f32) (harg2 : arg2.IsWhole) (arg3 : Memref sig .tc .vmem S64x128 .f32) (harg3 : arg3.IsWhole) (arg4 : Memref sig .tc .vmem S128 .f32) (harg4 : arg4.IsWhole) (arg5 : Memref sig .tc .vmem S64x128 .f32) (harg5 : arg5.IsWhole) (arg6 : Memref sig .tc .vmem S128 .f32) (harg6 : arg6.IsWhole) (arg7 : Memref sig .tc .vmem S64x128 .f32) (harg7 : arg7.IsWhole) (arg8 : Memref sig .tc .vmem S128 .f32) (harg8 : arg8.IsWhole) (arg9 : Memref sig .tc .vmem S1x512x128 .f32) (harg9 : arg9.IsWhole) (arg10 : Memref sig .tc .vmem S2048x128 .bf16) (harg10 : arg10.IsWhole) (arg11 : Memref sig .tc .vmem S2048x128 .bf16) (harg11 : arg11.IsWhole) (hc0 : cond0_0 i) (x0 : Vec F S1x2048x64 .f32) (x1 : Vec F S64x128 .f32) (x2 : Vec F S128 .f32) (x3 : Vec F S64x128 .f32) (x4 : Vec F S128 .f32) (x5 : Vec F S64x128 .f32) (x6 : Vec F S128 .f32) :
    sout0_A_1 c i arg2 harg2 arg3 harg3 arg4 harg4 arg5 harg5 arg6 harg6 arg7 harg7 arg8 harg8 arg9 harg9 arg10 harg10 arg11 harg11 hc0 x0 x1 x2 x3 x4 x5 x6 = k0_pay4 x0 x5 x6 := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 hc0 x0 x1 x2 x3 x4 x5 x6)]
  unfold kernelRun0_A
  dsimp only
  sl_unfold_words
  rw [View.canon_unit_zero hz2]
  simp only [View.readAt_eq_ld, harg2.read_unread, harg3.read_unread, harg4.read_unread, harg5.read_unread, harg6.read_unread, harg7.read_unread, harg8.read_unread, View.ld_unit_zero (S := S1x2048x64) hz3, View.ld_unit_zero (S := S64x128) hz2, View.ld_unit_zero (S := S128) hz1]

/-- At a batch's first tile the output tile is computed from the scratch just written. -/
theorem out_A_7 (c : Dev nD) (i : grid0.Coords) (arg2 : Memref sig .tc .vmem S1x2048x64 .f32) (harg2 : arg2.IsWhole) (arg3 : Memref sig .tc .vmem S64x128 .f32) (harg3 : arg3.IsWhole) (arg4 : Memref sig .tc .vmem S128 .f32) (harg4 : arg4.IsWhole) (arg5 : Memref sig .tc .vmem S64x128 .f32) (harg5 : arg5.IsWhole) (arg6 : Memref sig .tc .vmem S128 .f32) (harg6 : arg6.IsWhole) (arg7 : Memref sig .tc .vmem S64x128 .f32) (harg7 : arg7.IsWhole) (arg8 : Memref sig .tc .vmem S128 .f32) (harg8 : arg8.IsWhole) (arg9 : Memref sig .tc .vmem S1x512x128 .f32) (harg9 : arg9.IsWhole) (arg10 : Memref sig .tc .vmem S2048x128 .bf16) (harg10 : arg10.IsWhole) (arg11 : Memref sig .tc .vmem S2048x128 .bf16) (harg11 : arg11.IsWhole) (hc0 : cond0_0 i) (x0 : Vec F S1x2048x64 .f32) (x1 : Vec F S64x128 .f32) (x2 : Vec F S128 .f32) (x3 : Vec F S64x128 .f32) (x4 : Vec F S128 .f32) (x5 : Vec F S64x128 .f32) (x6 : Vec F S128 .f32) :
    out0_A_7 c i arg2 harg2 arg3 harg3 arg4 harg4 arg5 harg5 arg6 harg6 arg7 harg7 arg8 harg8 arg9 harg9 arg10 harg10 arg11 harg11 hc0 x0 x1 x2 x3 x4 x5 x6 = k0_pay1 (k0_pay5 (tile i x0) x1 x2 (k0_pay3 x0 x3 x4) (k0_pay4 x0 x5 x6)) := by
  unfold out0_A_7
  rw [View.read_writes_eq_canon _ _ _ (cover0_A_7 c i arg2 harg2 arg3 harg3 arg4 harg4 arg5 harg5 arg6 harg6 arg7 harg7 arg8 harg8 arg9 harg9 arg10 harg10 arg11 harg11 hc0 x0 x1 x2 x3 x4 x5 x6)]
  unfold kernelRun0_A
  dsimp only
  sl_unfold_words
  rw [View.canon_unit_zero hz3]
  simp only [View.readCov_unit_zero (S := S2048x128) _ hz2, View.readAt_eq_ld, harg2.read_unread, harg3.read_unread, harg4.read_unread, harg5.read_unread, harg6.read_unread, harg7.read_unread, harg8.read_unread, View.ld_unit_zero (S := S1x2048x64) hz3, View.ld_unit_zero (S := S64x128) hz2, View.ld_unit_zero (S := S128) hz1]
  rfl

/-- At the other tiles the output tile is computed from the scratch as found. -/
theorem out_B_7 (c : Dev nD) (i : grid0.Coords) (arg2 : Memref sig .tc .vmem S1x2048x64 .f32) (harg2 : arg2.IsWhole) (arg3 : Memref sig .tc .vmem S64x128 .f32) (harg3 : arg3.IsWhole) (arg4 : Memref sig .tc .vmem S128 .f32) (harg4 : arg4.IsWhole) (arg5 : Memref sig .tc .vmem S64x128 .f32) (harg5 : arg5.IsWhole) (arg6 : Memref sig .tc .vmem S128 .f32) (harg6 : arg6.IsWhole) (arg7 : Memref sig .tc .vmem S64x128 .f32) (harg7 : arg7.IsWhole) (arg8 : Memref sig .tc .vmem S128 .f32) (harg8 : arg8.IsWhole) (arg9 : Memref sig .tc .vmem S1x512x128 .f32) (harg9 : arg9.IsWhole) (arg10 : Memref sig .tc .vmem S2048x128 .bf16) (harg10 : arg10.IsWhole) (arg11 : Memref sig .tc .vmem S2048x128 .bf16) (harg11 : arg11.IsWhole) (hc0 : ¬cond0_0 i) (x0 : Vec F S1x2048x64 .f32) (x1 : Vec F S64x128 .f32) (x2 : Vec F S128 .f32) (x3 : Vec F S64x128 .f32) (x4 : Vec F S128 .f32) (x5 : Vec F S64x128 .f32) (x6 : Vec F S128 .f32) (xs0 xs1 : Vec F S2048x128 .bf16) :
    out0_B_7 c i arg2 harg2 arg3 harg3 arg4 harg4 arg5 harg5 arg6 harg6 arg7 harg7 arg8 harg8 arg9 harg9 arg10 harg10 arg11 harg11 hc0 x0 x1 x2 x3 x4 x5 x6 xs0 xs1 = k0_pay1 (k0_pay5 (tile i x0) x1 x2 xs0 xs1) := by
  unfold out0_B_7
  rw [View.read_writes_eq_canon _ _ _ (cover0_B_7 c i arg2 harg2 arg3 harg3 arg4 harg4 arg5 harg5 arg6 harg6 arg7 harg7 arg8 harg8 arg9 harg9 arg10 harg10 arg11 harg11 hc0 x0 x1 x2 x3 x4 x5 x6 xs0 xs1)]
  unfold kernelRun0_B
  dsimp only
  sl_unfold_words
  rw [View.canon_unit_zero hz3]
  simp only [View.readAt_eq_ld, harg2.read_unread, harg3.read_unread, harg4.read_unread, harg10.read_unread, harg11.read_unread, View.ld_unit_zero (S := S1x2048x64) hz3, View.ld_unit_zero (S := S64x128) hz2, View.ld_unit_zero (S := S128) hz1, View.ld_unit_zero (S := S2048x128) hz2]
  rfl

end Cert.KernelIdeal.AttnPieces

end
-- ==== Proof.KernelDots.lean ====
/-
  The kernel's four matrix products, each into a zero accumulator, read at an output index `(p, q)` at the
  extended reals as the sum over the contracted axis of the operands' products: the two dense projections
  (rows × input channels times input channels × output channels), the scores (query rows against key rows, both
  contracted on the channel axis, so the key operand is read transposed), and the mix of value rows by weights.
  The operand indices of each product's dimension record are computed coordinate by coordinate.
-/
import proofs.«157915_j53687091200195_2_alg».proof.Proof.Gen.KernelIdeal.Skeleton
import Idealize.ShloMosaic.Lib.ValueIdx
import Idealize.ShloMosaic.PureOps.Ideal.Laws

noncomputable section

namespace Cert.KernelIdeal.AttnDots

open Cert.KernelIdeal Cert.KernelIdeal.Gen Idealize.ShloMosaic Idealize.ShloMosaic.ValueIdx

theorem dotProj2048_l0 (i : S2048x128.Idx) (z : dot_S2048x64_S64x128_S2048x128_1_0_0_1_n_n.contr.Idx) : (dot_S2048x64_S64x128_S2048x128_1_0_0_1_n_n.lhsIdx i z 0).val = (i 0).val := by
  unfold DotDims.lhsIdx
  rw [dif_neg (show ¬(0 : Fin S2048x64.rank) ∈ dot_S2048x64_S64x128_S2048x128_1_0_0_1_n_n.lhsBatch by decide), dif_pos (show (0 : Fin S2048x64.rank) ∈ dot_S2048x64_S64x128_S2048x128_1_0_0_1_n_n.lhsNonContracting by decide)]
  rfl
theorem dotProj2048_l1 (i : S2048x128.Idx) (z : dot_S2048x64_S64x128_S2048x128_1_0_0_1_n_n.contr.Idx) : (dot_S2048x64_S64x128_S2048x128_1_0_0_1_n_n.lhsIdx i z 1).val = (z ⟨0, by decide⟩).val :=
  dot_S2048x64_S64x128_S2048x128_1_0_0_1_n_n.lhsIdx_val_of_single rfl i z
theorem dotProj2048_r0 (i : S2048x128.Idx) (z : dot_S2048x64_S64x128_S2048x128_1_0_0_1_n_n.contr.Idx) : (dot_S2048x64_S64x128_S2048x128_1_0_0_1_n_n.rhsIdx i z 0).val = (z ⟨0, by decide⟩).val :=
  dot_S2048x64_S64x128_S2048x128_1_0_0_1_n_n.rhsIdx_val_of_single rfl i z
theorem dotProj2048_r1 (i : S2048x128.Idx) (z : dot_S2048x64_S64x128_S2048x128_1_0_0_1_n_n.contr.Idx) : (dot_S2048x64_S64x128_S2048x128_1_0_0_1_n_n.rhsIdx i z 1).val = (i 1).val := by
  unfold DotDims.rhsIdx
  rw [dif_neg (show ¬(1 : Fin S64x128.rank) ∈ dot_S2048x64_S64x128_S2048x128_1_0_0_1_n_n.rhsBatch by decide), dif_pos (show (1 : Fin S64x128.rank) ∈ dot_S2048x64_S64x128_S2048x128_1_0_0_1_n_n.rhsNonContracting by decide)]
  rfl
/-- The product into the zero accumulator, read at `(p, q)`: the sum over the contracted axis. -/
theorem dotProj2048 (l : FVec Ideal S2048x64 .f32) (r : FVec Ideal S64x128 .f32) (p : Fin 2048) (q : Fin 128) :
    matmul dot_S2048x64_S64x128_S2048x128_1_0_0_1_n_n none l r (constant S2048x128 .f32 0x00000000#32) (ix2 p q)
      = ∑ k : Fin 64, l (ix2 p k) * r (ix2 k q) := by
  simp only [matmul]
  rw [Ideal.matmul_constant_zero_apply, ← Equiv.sum_comp (contrEquiv1 dot_S2048x64_S64x128_S2048x128_1_0_0_1_n_n 64 rfl rfl).symm]
  refine Finset.sum_congr rfl fun k _ => ?_
  have hk := contrEquiv1_symm_val dot_S2048x64_S64x128_S2048x128_1_0_0_1_n_n 64 rfl rfl k
  have el : dot_S2048x64_S64x128_S2048x128_1_0_0_1_n_n.lhsIdx (ix2 p q) ((contrEquiv1 dot_S2048x64_S64x128_S2048x128_1_0_0_1_n_n 64 rfl rfl).symm k) = ix2 p k := funext fun a => Fin.ext (by
    match a with
    | ⟨0, _⟩ => exact dotProj2048_l0 _ _
    | ⟨1, _⟩ => exact (dotProj2048_l1 _ _).trans hk)
  have er : dot_S2048x64_S64x128_S2048x128_1_0_0_1_n_n.rhsIdx (ix2 p q) ((contrEquiv1 dot_S2048x64_S64x128_S2048x128_1_0_0_1_n_n 64 rfl rfl).symm k) = ix2 k q := funext fun a => Fin.ext (by
    match a with
    | ⟨0, _⟩ => exact (dotProj2048_r0 _ _).trans hk
    | ⟨1, _⟩ => exact dotProj2048_r1 _ _)
  rw [el, er]

theorem dotProj512_l0 (i : S512x128.Idx) (z : dot_S512x64_S64x128_S512x128_1_0_0_1_n_n.contr.Idx) : (dot_S512x64_S64x128_S512x128_1_0_0_1_n_n.lhsIdx i z 0).val = (i 0).val := by
  unfold DotDims.lhsIdx
  rw [dif_neg (show ¬(0 : Fin S512x64.rank) ∈ dot_S512x64_S64x128_S512x128_1_0_0_1_n_n.lhsBatch by decide), dif_pos (show (0 : Fin S512x64.rank) ∈ dot_S512x64_S64x128_S512x128_1_0_0_1_n_n.lhsNonContracting by decide)]
  rfl
theorem dotProj512_l1 (i : S512x128.Idx) (z : dot_S512x64_S64x128_S512x128_1_0_0_1_n_n.contr.Idx) : (dot_S512x64_S64x128_S512x128_1_0_0_1_n_n.lhsIdx i z 1).val = (z ⟨0, by decide⟩).val :=
  dot_S512x64_S64x128_S512x128_1_0_0_1_n_n.lhsIdx_val_of_single rfl i z
theorem dotProj512_r0 (i : S512x128.Idx) (z : dot_S512x64_S64x128_S512x128_1_0_0_1_n_n.contr.Idx) : (dot_S512x64_S64x128_S512x128_1_0_0_1_n_n.rhsIdx i z 0).val = (z ⟨0, by decide⟩).val :=
  dot_S512x64_S64x128_S512x128_1_0_0_1_n_n.rhsIdx_val_of_single rfl i z
theorem dotProj512_r1 (i : S512x128.Idx) (z : dot_S512x64_S64x128_S512x128_1_0_0_1_n_n.contr.Idx) : (dot_S512x64_S64x128_S512x128_1_0_0_1_n_n.rhsIdx i z 1).val = (i 1).val := by
  unfold DotDims.rhsIdx
  rw [dif_neg (show ¬(1 : Fin S64x128.rank) ∈ dot_S512x64_S64x128_S512x128_1_0_0_1_n_n.rhsBatch by decide), dif_pos (show (1 : Fin S64x128.rank) ∈ dot_S512x64_S64x128_S512x128_1_0_0_1_n_n.rhsNonContracting by decide)]
  rfl
/-- The product into the zero accumulator, read at `(p, q)`: the sum over the contracted axis. -/
theorem dotProj512 (l : FVec Ideal S512x64 .f32) (r : FVec Ideal S64x128 .f32) (p : Fin 512) (q : Fin 128) :
    matmul dot_S512x64_S64x128_S512x128_1_0_0_1_n_n none l r (constant S512x128 .f32 0x00000000#32) (ix2 p q)
      = ∑ k : Fin 64, l (ix2 p k) * r (ix2 k q) := by
  simp only [matmul]
  rw [Ideal.matmul_constant_zero_apply, ← Equiv.sum_comp (contrEquiv1 dot_S512x64_S64x128_S512x128_1_0_0_1_n_n 64 rfl rfl).symm]
  refine Finset.sum_congr rfl fun k _ => ?_
  have hk := contrEquiv1_symm_val dot_S512x64_S64x128_S512x128_1_0_0_1_n_n 64 rfl rfl k
  have el : dot_S512x64_S64x128_S512x128_1_0_0_1_n_n.lhsIdx (ix2 p q) ((contrEquiv1 dot_S512x64_S64x128_S512x128_1_0_0_1_n_n 64 rfl rfl).symm k) = ix2 p k := funext fun a => Fin.ext (by
    match a with
    | ⟨0, _⟩ => exact dotProj512_l0 _ _
    | ⟨1, _⟩ => exact (dotProj512_l1 _ _).trans hk)
  have er : dot_S512x64_S64x128_S512x128_1_0_0_1_n_n.rhsIdx (ix2 p q) ((contrEquiv1 dot_S512x64_S64x128_S512x128_1_0_0_1_n_n 64 rfl rfl).symm k) = ix2 k q := funext fun a => Fin.ext (by
    match a with
    | ⟨0, _⟩ => exact (dotProj512_r0 _ _).trans hk
    | ⟨1, _⟩ => exact dotProj512_r1 _ _)
  rw [el, er]

theorem dotScore_l0 (i : S512x2048.Idx) (z : dot_S512x128_S2048x128_S512x2048_1_1_0_0_n_n.contr.Idx) : (dot_S512x128_S2048x128_S512x2048_1_1_0_0_n_n.lhsIdx i z 0).val = (i 0).val := by
  unfold DotDims.lhsIdx
  rw [dif_neg (show ¬(0 : Fin S512x128.rank) ∈ dot_S512x128_S2048x128_S512x2048_1_1_0_0_n_n.lhsBatch by decide), dif_pos (show (0 : Fin S512x128.rank) ∈ dot_S512x128_S2048x128_S512x2048_1_1_0_0_n_n.lhsNonContracting by decide)]
  rfl
theorem dotScore_l1 (i : S512x2048.Idx) (z : dot_S512x128_S2048x128_S512x2048_1_1_0_0_n_n.contr.Idx) : (dot_S512x128_S2048x128_S512x2048_1_1_0_0_n_n.lhsIdx i z 1).val = (z ⟨0, by decide⟩).val :=
  dot_S512x128_S2048x128_S512x2048_1_1_0_0_n_n.lhsIdx_val_of_single rfl i z
theorem dotScore_r1 (i : S512x2048.Idx) (z : dot_S512x128_S2048x128_S512x2048_1_1_0_0_n_n.contr.Idx) : (dot_S512x128_S2048x128_S512x2048_1_1_0_0_n_n.rhsIdx i z 1).val = (z ⟨0, by decide⟩).val :=
  dot_S512x128_S2048x128_S512x2048_1_1_0_0_n_n.rhsIdx_val_of_single rfl i z
theorem dotScore_r0 (i : S512x2048.Idx) (z : dot_S512x128_S2048x128_S512x2048_1_1_0_0_n_n.contr.Idx) : (dot_S512x128_S2048x128_S512x2048_1_1_0_0_n_n.rhsIdx i z 0).val = (i 1).val := by
  unfold DotDims.rhsIdx
  rw [dif_neg (show ¬(0 : Fin S2048x128.rank) ∈ dot_S512x128_S2048x128_S512x2048_1_1_0_0_n_n.rhsBatch by decide), dif_pos (show (0 : Fin S2048x128.rank) ∈ dot_S512x128_S2048x128_S512x2048_1_1_0_0_n_n.rhsNonContracting by decide)]
  rfl
/-- The product into the zero accumulator, read at `(p, q)`: the sum over the contracted axis. -/
theorem dotScore (l : FVec Ideal S512x128 .bf16) (r : FVec Ideal S2048x128 .bf16) (p : Fin 512) (q : Fin 2048) :
    matmul dot_S512x128_S2048x128_S512x2048_1_1_0_0_n_n none l r (constant S512x2048 .f32 0x00000000#32) (ix2 p q)
      = ∑ k : Fin 128, l (ix2 p k) * r (ix2 q k) := by
  simp only [matmul]
  rw [Ideal.matmul_constant_zero_apply, ← Equiv.sum_comp (contrEquiv1 dot_S512x128_S2048x128_S512x2048_1_1_0_0_n_n 128 rfl rfl).symm]
  refine Finset.sum_congr rfl fun k _ => ?_
  have hk := contrEquiv1_symm_val dot_S512x128_S2048x128_S512x2048_1_1_0_0_n_n 128 rfl rfl k
  have el : dot_S512x128_S2048x128_S512x2048_1_1_0_0_n_n.lhsIdx (ix2 p q) ((contrEquiv1 dot_S512x128_S2048x128_S512x2048_1_1_0_0_n_n 128 rfl rfl).symm k) = ix2 p k := funext fun a => Fin.ext (by
    match a with
    | ⟨0, _⟩ => exact dotScore_l0 _ _
    | ⟨1, _⟩ => exact (dotScore_l1 _ _).trans hk)
  have er : dot_S512x128_S2048x128_S512x2048_1_1_0_0_n_n.rhsIdx (ix2 p q) ((contrEquiv1 dot_S512x128_S2048x128_S512x2048_1_1_0_0_n_n 128 rfl rfl).symm k) = ix2 q k := funext fun a => Fin.ext (by
    match a with
    | ⟨1, _⟩ => exact (dotScore_r1 _ _).trans hk
    | ⟨0, _⟩ => exact dotScore_r0 _ _)
  rw [el, er]

theorem dotMix_l0 (i : S512x128.Idx) (z : dot_S512x2048_S2048x128_S512x128_1_0_0_1_n_n.contr.Idx) : (dot_S512x2048_S2048x128_S512x128_1_0_0_1_n_n.lhsIdx i z 0).val = (i 0).val := by
  unfold DotDims.lhsIdx
  rw [dif_neg (show ¬(0 : Fin S512x2048.rank) ∈ dot_S512x2048_S2048x128_S512x128_1_0_0_1_n_n.lhsBatch by decide), dif_pos (show (0 : Fin S512x2048.rank) ∈ dot_S512x2048_S2048x128_S512x128_1_0_0_1_n_n.lhsNonContracting by decide)]
  rfl
theorem dotMix_l1 (i : S512x128.Idx) (z : dot_S512x2048_S2048x128_S512x128_1_0_0_1_n_n.contr.Idx) : (dot_S512x2048_S2048x128_S512x128_1_0_0_1_n_n.lhsIdx i z 1).val = (z ⟨0, by decide⟩).val :=
  dot_S512x2048_S2048x128_S512x128_1_0_0_1_n_n.lhsIdx_val_of_single rfl i z
theorem dotMix_r0 (i : S512x128.Idx) (z : dot_S512x2048_S2048x128_S512x128_1_0_0_1_n_n.contr.Idx) : (dot_S512x2048_S2048x128_S512x128_1_0_0_1_n_n.rhsIdx i z 0).val = (z ⟨0, by decide⟩).val :=
  dot_S512x2048_S2048x128_S512x128_1_0_0_1_n_n.rhsIdx_val_of_single rfl i z
theorem dotMix_r1 (i : S512x128.Idx) (z : dot_S512x2048_S2048x128_S512x128_1_0_0_1_n_n.contr.Idx) : (dot_S512x2048_S2048x128_S512x128_1_0_0_1_n_n.rhsIdx i z 1).val = (i 1).val := by
  unfold DotDims.rhsIdx
  rw [dif_neg (show ¬(1 : Fin S2048x128.rank) ∈ dot_S512x2048_S2048x128_S512x128_1_0_0_1_n_n.rhsBatch by decide), dif_pos (show (1 : Fin S2048x128.rank) ∈ dot_S512x2048_S2048x128_S512x128_1_0_0_1_n_n.rhsNonContracting by decide)]
  rfl
/-- The product into the zero accumulator, read at `(p, q)`: the sum over the contracted axis. -/
theorem dotMix (l : FVec Ideal S512x2048 .bf16) (r : FVec Ideal S2048x128 .bf16) (p : Fin 512) (q : Fin 128) :
    matmul dot_S512x2048_S2048x128_S512x128_1_0_0_1_n_n none l r (constant S512x128 .f32 0x00000000#32) (ix2 p q)
      = ∑ k : Fin 2048, l (ix2 p k) * r (ix2 k q) := by
  simp only [matmul]
  rw [Ideal.matmul_constant_zero_apply, ← Equiv.sum_comp (contrEquiv1 dot_S512x2048_S2048x128_S512x128_1_0_0_1_n_n 2048 rfl rfl).symm]
  refine Finset.sum_congr rfl fun k _ => ?_
  have hk := contrEquiv1_symm_val dot_S512x2048_S2048x128_S512x128_1_0_0_1_n_n 2048 rfl rfl k
  have el : dot_S512x2048_S2048x128_S512x128_1_0_0_1_n_n.lhsIdx (ix2 p q) ((contrEquiv1 dot_S512x2048_S2048x128_S512x128_1_0_0_1_n_n 2048 rfl rfl).symm k) = ix2 p k := funext fun a => Fin.ext (by
    match a with
    | ⟨0, _⟩ => exact dotMix_l0 _ _
    | ⟨1, _⟩ => exact (dotMix_l1 _ _).trans hk)
  have er : dot_S512x2048_S2048x128_S512x128_1_0_0_1_n_n.rhsIdx (ix2 p q) ((contrEquiv1 dot_S512x2048_S2048x128_S512x128_1_0_0_1_n_n 2048 rfl rfl).symm k) = ix2 k q := funext fun a => Fin.ext (by
    match a with
    | ⟨0, _⟩ => exact (dotMix_r0 _ _).trans hk
    | ⟨1, _⟩ => exact dotMix_r1 _ _)
  rw [el, er]

end Cert.KernelIdeal.AttnDots

end
-- ==== Proof.AttnSpec.lean ====
/-
  The specification: scaled dot-product attention over ReLU-activated dense projections, as ONE function of the
  seven argument arrays, index by index, on the extended reals.

  For a batch `b`, a query row `n` and an output channel `d`:
    Q[b,n,·], K[b,m,·], V[b,m,·] are rows of `max (x · W + bias) 0`;
    s[m] = (Σ_d' Q[b,n,d'] · K[b,m,d']) · (1/8);
    e[m] = exp (s[m] − max_m' s[m']);
    out[b,n,d] = Σ_m (e[m] / Σ_m' e[m']) · V[b,m,d].
  The row maximum is a fold of `max` from the bottom element, the form both a lane reduction and a host reduction
  take at the extended reals; nothing here depends on how the rows are tiled over a grid.
-/
import Idealize.ShloMosaic.PureOps.Ideal
import Idealize.ShloMosaic.Lib.ValueIdx

noncomputable section

namespace Cert.AttnSpec

open Idealize.ShloMosaic Idealize.ShloMosaic.ValueIdx

abbrev SX : Shape := ⟨3, ![16, 2048, 64]⟩
abbrev SW : Shape := ⟨2, ![64, 128]⟩
abbrev SB : Shape := ⟨1, ![128]⟩
abbrev SO : Shape := ⟨3, ![16, 2048, 128]⟩

/-- One row of a dense layer with ReLU: channel `d` of `max (xr · W + b) 0` for one input row `xr`. -/
def projRow (xr : Fin 64 → EReal) (W : SW.Idx → EReal) (b : SB.Idx → EReal) (d : Fin 128) : EReal :=
  max ((∑ c : Fin 64, xr c * W (ix2 c d)) + b (ix1 d)) (Ideal.ofBits .f32 0x00000000#32)

/-- The maximum of 2048 scores: the fold of `max` from the bottom element. -/
def rowMax (f : Fin 2048 → EReal) : EReal :=
  (Finset.univ : Finset (Fin 2048)).fold max (Ideal.ofBits .f32 0xFF800000#32) f

/-- The scaled score of one query row `q` against key row `m`. -/
def scoreRow (q : Fin 128 → EReal) (K : Fin 2048 → Fin 128 → EReal) (m : Fin 2048) : EReal :=
  (∑ d : Fin 128, q d * K m d) * Ideal.ofBits .f32 0x3E000000#32

/-- The shifted exponential of the score against key row `m`. -/
def expRow (q : Fin 128 → EReal) (K : Fin 2048 → Fin 128 → EReal) (m : Fin 2048) : EReal :=
  Ideal.exp (scoreRow q K m - rowMax (scoreRow q K))

/-- One output row: the softmax weights of `q` against the keys, applied to the values. -/
def attnRow (q : Fin 128 → EReal) (K V : Fin 2048 → Fin 128 → EReal) (d : Fin 128) : EReal :=
  ∑ m : Fin 2048, Ideal.div (expRow q K m) (∑ m' : Fin 2048, expRow q K m') * V m d

/-- Row `n` of batch `b` of `x`. -/
abbrev xrow (x : SX.Idx → EReal) (b : Fin 16) (n : Fin 2048) : Fin 64 → EReal := fun c => x (ix3 b n c)

/-- The projected rows of batch `b`: `max (x[b] · W + bias) 0`. -/
abbrev projRows (x : SX.Idx → EReal) (W : SW.Idx → EReal) (bias : SB.Idx → EReal) (b : Fin 16) : Fin 2048 → Fin 128 → EReal :=
  fun m => projRow (xrow x b m) W bias

/-- The whole result at coordinates `(b, n, d)`. -/
def attnAt (x : SX.Idx → EReal) (Wq : SW.Idx → EReal) (bq : SB.Idx → EReal) (Wk : SW.Idx → EReal) (bk : SB.Idx → EReal)
    (Wv : SW.Idx → EReal) (bv : SB.Idx → EReal) (b : Fin 16) (n : Fin 2048) (d : Fin 128) : EReal :=
  attnRow (projRow (xrow x b n) Wq bq) (projRows x Wk bk b) (projRows x Wv bv b) d

/-- The whole result array. -/
def attn (x : SX.Idx → EReal) (Wq : SW.Idx → EReal) (bq : SB.Idx → EReal) (Wk : SW.Idx → EReal) (bk : SB.Idx → EReal)
    (Wv : SW.Idx → EReal) (bv : SB.Idx → EReal) : SO.Idx → EReal :=
  fun i => attnAt x Wq bq Wk bk Wv bv (i 0) (i 1) (i 2)

theorem attn_ix3 (x : SX.Idx → EReal) (Wq : SW.Idx → EReal) (bq : SB.Idx → EReal) (Wk : SW.Idx → EReal) (bk : SB.Idx → EReal)
    (Wv : SW.Idx → EReal) (bv : SB.Idx → EReal) (b : Fin 16) (n : Fin 2048) (d : Fin 128) :
    attn x Wq bq Wk bk Wv bv (ix3 b n d) = attnAt x Wq bq Wk bk Wv bv b n d := rfl

end Cert.AttnSpec

end
-- ==== Proof.LibVecRead.lean ====
/-
  Vector operations of small literal shapes read at an index built from coordinates: a column made from a
  vector, a column broadcast over the lanes, a rectangular slice with offsets on both axes, a sum along the
  lanes as a finite sum, and the mask "row index equals lane index".  Nothing here knows a program.
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.VecRead

open Idealize.ShloMosaic Idealize.ShloMosaic.ValueIdx

variable {α : Type}

/-- A vector of length `a` viewed as an `a × 1` column reads, at `(r, 0)`, the vector at `r`. -/
theorem shapeCast_col_apply {a : ℕ} (v : (⟨1, ![a]⟩ : Shape).Idx → α) (h : (⟨1, ![a]⟩ : Shape).ShapeCasts ⟨2, ![a, 1]⟩)
    (r : Fin a) (z : Fin 1) : shapeCast ⟨2, ![a, 1]⟩ v h (ix2 r z) = v (ix1 r) :=
  shapeCast_apply v h _ _ (by
    have hz : z.val = 0 := by omega
    rw [Shape.rowMajor_val_one, Shape.rowMajor_val_two]
    show r.val = r.val * 1 + z.val
    omega)

/-- An `a × 1` column broadcast to `a × b` reads, at `(p, c)`, the column at `p`. -/
theorem broadcastTo_col_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A rectangular slice with unit strides reads, at `(r, c)`, the operand at `(o₀ + r, o₁ + c)`. -/
theorem slice2_apply {n0 n1 m0 m1 : ℕ} (o0 o1 : ℕ) (X : (⟨2, ![n0, n1]⟩ : Shape).Idx → α)
    (h : (⟨2, ![n0, n1]⟩ : Shape).Slices ![o0, o1] ⟨2, ![m0, m1]⟩) (r : Fin m0) (c : Fin m1) (r' : Fin n0) (c' : Fin n1)
    (hr : r'.val = o0 + r.val) (hc : c'.val = o1 + c.val) :
    extractStridedSlice ⟨2, ![m0, m1]⟩ ![o0, o1] X h (ix2 r c) = X (ix2 r' c') :=
  extractStridedSlice_apply _ X h _ _ fun ax => match ax with
    | ⟨0, _⟩ => hr
    | ⟨1, _⟩ => hc

/-- At the extended reals a sum along the lanes of an `a × b` array, from the zero word, is at row `r` the finite sum
    of the row's entries. -/
theorem laneSum_apply {a b : ℕ} (src : FVec Ideal ⟨2, ![a, b]⟩ .f32) (h : (⟨2, ![a, b]⟩ : Shape).Reduces [1] ⟨1, ![a]⟩)
    (hφ : FKind.Formats .f32) (hacc : (0x00000000#32 : BitVec FTy.f32.bits) = FKind.add.neutral .f32 hφ) (r : Fin a) :
    multiReduction .add [1] ⟨1, ![a]⟩ src 0x00000000#32 h hφ hacc (ix1 r) = ∑ k : Fin b, src (ix2 r k) := by
  refine (Ideal.multiReduction_add_single src 0x00000000#32 h hφ hacc (ix1 r)).trans ?_
  show ∑ k : Fin b, src (h.lift (ix1 r) k) = _
  refine Finset.sum_congr rfl fun k _ => congrArg src (funext fun d => Fin.ext ?_)
  match d with
  | ⟨0, _⟩ => rfl
  | ⟨1, _⟩ => rfl

/-- The mask "row index = lane index" of an `n × n` tile, `n` below `2^32`. -/
theorem eyeMask_apply {n : ℕ} (hn : n ≤ 4294967296) (h0 : (⟨2, ![n, n]⟩ : Shape).Iotas .tc 32 [0]) (h1 : (⟨2, ![n, n]⟩ : Shape).Iotas .tc 32 [1])
    (r c : Fin n) :
    cmpi .eq (iota .tc ⟨2, ![n, n]⟩ 32 [0] h0) (iota .tc ⟨2, ![n, n]⟩ 32 [1] h1) (ix2 r c) = if r = c then 1#1 else 0#1 := by
  show IntOp.cmpi .eq (iota .tc ⟨2, ![n, n]⟩ 32 [0] h0 (ix2 r c)) (iota .tc ⟨2, ![n, n]⟩ 32 [1] h1 (ix2 r c)) = _
  rw [iota_single_apply, iota_single_apply]
  show BitVec.ofBool (BitVec.ofNat 32 r.val == BitVec.ofNat 32 c.val) = _
  have hr := r.isLt
  have hc := c.isLt
  by_cases e : r = c
  · subst e; simp
  · have : r.val ≠ c.val := fun hv => e (Fin.ext hv)
    have hne : BitVec.ofNat 32 r.val ≠ BitVec.ofNat 32 c.val := by
      intro hv
      have := congrArg BitVec.toNat hv
      simp only [BitVec.toNat_ofNat] at this
      rw [Nat.mod_eq_of_lt (by omega), Nat.mod_eq_of_lt (by omega)] at this
      exact ‹r.val ≠ c.val› this
    rw [if_neg e, beq_eq_false_iff_ne.mpr hne]
    rfl

/-- A select under that mask against the zero word, summed along the lanes, keeps the diagonal entry: every other
    term of the sum is zero. -/
theorem sum_eye_select {n : ℕ} (f : Fin n → EReal) (r : Fin n) :
    (∑ k : Fin n, Scalar.select (if r = k then 1#1 else 0#1) (f k) (0 : EReal)) = f r := by
  have : ∀ k : Fin n, Scalar.select (if r = k then 1#1 else 0#1) (f k) (0 : EReal) = if r = k then f k else 0 := by
    intro k; by_cases e : r = k <;> simp [e, Scalar.select]
  simp only [this, Finset.sum_ite_eq, Finset.mem_univ, if_true]

end Cert.VecRead

end
-- ==== Proof.LibRowMax.lean ====
/-
  A maximum along the last axis read at an index built from coordinates, at the extended reals: the lane
  maximum of an `a × b` array from the bottom word, and a host reduction with a maximum body over the last axis
  of an `a × b × c` array.  Both are the fold of `max`, from the starting value, over the reduced axis's
  coordinates, in any order.  Nothing here knows a program.
-/
import Idealize.ShloMosaic.Lib.ValueIdx
import Idealize.ShloMosaic.PureOps.Ideal.Laws

noncomputable section

namespace Cert.RowMax

open Idealize.ShloMosaic Idealize.ShloMosaic.ValueIdx

/-- At the extended reals a maximum along the lanes of an `a × b` array, from the word `0xFF800000`, is at row `r`
    the fold of `max` over the row's entries. -/
theorem laneMax_apply {a b : ℕ} (src : FVec Ideal ⟨2, ![a, b]⟩ .f32) (h : (⟨2, ![a, b]⟩ : Shape).Reduces [1] ⟨1, ![a]⟩)
    (hφ : FKind.Formats .f32) (hacc : (0xFF800000#32 : BitVec FTy.f32.bits) = FKind.maximumf.neutral .f32 hφ) (r : Fin a) :
    multiReduction .maximumf [1] ⟨1, ![a]⟩ src 0xFF800000#32 h hφ hacc (ix1 r)
      = (Finset.univ : Finset (Fin b)).fold max (Ideal.ofBits .f32 0xFF800000#32) (fun k => src (ix2 r k)) := by
  refine (Ideal.multiReduction_maximumf_single src 0xFF800000#32 h hφ hacc (ix1 r)).trans ?_
  show (Finset.univ : Finset (Fin b)).fold max (Ideal.ofBits .f32 0xFF800000#32) (fun k => src (h.lift (ix1 r) k)) = _
  refine congrArg (fun f => Finset.fold max (Ideal.ofBits .f32 0xFF800000#32) f (Finset.univ : Finset (Fin b)))
    (funext fun k => congrArg src (funext fun d => Fin.ext ?_))
  match d with
  | ⟨0, _⟩ => rfl
  | ⟨1, _⟩ => rfl

/-- At the extended reals a host reduction with a maximum body over the last axis of an `a × b × c` array is, at
    `(p, q)`, the fold of `max` from the initial value over the entries `(p, q, ·)`. -/
theorem hostMax3_apply {a b c : ℕ} {u : Shape} (x : FVec Ideal ⟨3, ![a, b, c]⟩ .f32) (init : FVec Ideal u .f32)
    (h' : (⟨3, ![a, b, c]⟩ : Shape).ReducesTo [2] ⟨2, ![a, b]⟩) (h : (⟨3, ![a, b, c]⟩ : Shape).Reduces [2] ⟨2, ![a, b]⟩)
    (hu : 0 < u.numel) (p : Fin a) (q : Fin b) :
    Host.reduce (FloatOps.maximumf (F := Ideal) (φ := .f32)) x init h' hu (ix2 p q)
      = (Finset.univ : Finset (Fin c)).fold max (init (Shape.Idx.first hu)) (fun k => x (ix3 p q k)) := by
  refine (Host.reduce_eq_fold_single (FloatOps.maximumf (F := Ideal) (φ := .f32)) x init h' h hu (ix2 p q)).trans ?_
  show (Finset.univ : Finset (Fin c)).fold max (init (Shape.Idx.first hu)) (fun k => x (h.lift (ix2 p q) k)) = _
  refine congrArg (fun f => Finset.fold max (init (Shape.Idx.first hu)) f (Finset.univ : Finset (Fin c)))
    (funext fun k => congrArg x (funext fun d => Fin.ext ?_))
  match d with
  | ⟨0, _⟩ => rfl
  | ⟨1, _⟩ => rfl
  | ⟨2, _⟩ => rfl

end Cert.RowMax

end
-- ==== Proof.KernelPayload.lean ====
/-
  The kernel body's stored values, read at an index at the extended reals.

  A key or value scratch row is one row of `max (x · W + bias) 0` (the rounding to the narrow format is the identity
  here).  The output tile is computed in five steps, each named below and read at an index on its own: the query
  rows (the same dense projection), the scaled scores of a query row against every key row, the row maximum
  broadcast back over the row, the shifted exponentials, and the weights (each exponential over its row's sum);
  the tile is the weights times the value rows.  Composed, row `p` of the tile is the specification's `attnRow` of
  the query row, the key rows and the value rows.
-/
import proofs.«157915_j53687091200195_2_alg».proof.Proof.KernelDots
import proofs.«157915_j53687091200195_2_alg».proof.Proof.AttnSpec
import proofs.«157915_j53687091200195_2_alg».proof.Proof.LibVecRead
import proofs.«157915_j53687091200195_2_alg».proof.Proof.LibRowMax
import Idealize.ShloMosaic.Lib.ValueLayout
import Idealize.ShloMosaic.Lib.Pipeline.Value

noncomputable section

namespace Cert.KernelIdeal.AttnPayload

open Cert.KernelIdeal Cert.KernelIdeal.Gen Cert.KernelIdeal.AttnDots
open Idealize.ShloMosaic Idealize.ShloMosaic.ValueIdx Cert.AttnSpec Cert.VecRead Cert.RowMax

/-! ## The dense projection with ReLU, over a whole batch row (2048 rows) and over a query tile (512 rows) -/

/-- Row `p`, channel `d` of `max (x · W + bias) 0` over the 2048 rows of a `1 × 2048 × 64` block. -/
theorem proj2048_apply (x : FVec Ideal S1x2048x64 .f32) (w : FVec Ideal S64x128 .f32) (bias : FVec Ideal S128 .f32)
    (p : Fin 2048) (d : Fin 128) :
    maximumf (addf (matmul dot_S2048x64_S64x128_S2048x128_1_0_0_1_n_n none (k0_pay2 x) w (constant S2048x128 .f32 0x00000000#32))
        (broadcastTo S2048x128 (shapeCast S1x128 bias shapeCasts_S128_S1x128) broadcasts_S1x128_S2048x128))
      (broadcast S2048x128 (Scalar.ofBits .f32 0x00000000#32)) (ix2 p d)
      = projRow (fun c => x (ix3 (0 : Fin 1) p c)) w bias d := by
  show max (matmul dot_S2048x64_S64x128_S2048x128_1_0_0_1_n_n none (k0_pay2 x) w (constant S2048x128 .f32 0x00000000#32) (ix2 p d)
    + broadcastTo S2048x128 (shapeCast S1x128 bias shapeCasts_S128_S1x128) broadcasts_S1x128_S2048x128 (ix2 p d)) (Ideal.ofBits .f32 0x00000000#32) = _
  rw [dotProj2048, broadcastTo_1b_ab_apply, shapeCast_a_1a_apply]
  unfold projRow k0_pay2
  simp only [shapeCast_1ab_ab_apply]

/-- What the body stores in the key scratch, at row `p`, channel `d`. -/
theorem pay3_apply (v36 : FVec Ideal S1x2048x64 .f32) (v38 : FVec Ideal S64x128 .f32) (v40 : FVec Ideal S128 .f32)
    (p : Fin 2048) (d : Fin 128) :
    k0_pay3 (F := Ideal) v36 v38 v40 (ix2 p d) = projRow (fun c => v36 (ix3 (0 : Fin 1) p c)) v38 v40 d := by
  unfold k0_pay3
  rw [shapeCast_self]
  exact proj2048_apply v36 v38 v40 p d

/-- What the body stores in the value scratch, at row `p`, channel `d`. -/
theorem pay4_apply (v36 : FVec Ideal S1x2048x64 .f32) (v46 : FVec Ideal S64x128 .f32) (v48 : FVec Ideal S128 .f32)
    (p : Fin 2048) (d : Fin 128) :
    k0_pay4 (F := Ideal) v36 v46 v48 (ix2 p d) = projRow (fun c => v36 (ix3 (0 : Fin 1) p c)) v46 v48 d := by
  unfold k0_pay4
  rw [shapeCast_self]
  exact proj2048_apply v36 v46 v48 p d

/-! ## The output tile, step by step -/

/-- The query rows of the tile: the dense projection of the tile's 512 input rows. -/
def qPay (v6 : FVec Ideal S1x512x64 .f32) (v8 : FVec Ideal S64x128 .f32) (v10 : FVec Ideal S128 .f32) : FVec Ideal S512x128 .bf16 :=
  truncf .bf16 (maximumf (addf (matmul dot_S512x64_S64x128_S512x128_1_0_0_1_n_n none (shapeCast S512x64 v6 shapeCasts_S1x512x64_S512x64) v8 (constant S512x128 .f32 0x00000000#32))
      (broadcastTo S512x128 (shapeCast S1x128 v10 shapeCasts_S128_S1x128) broadcasts_S1x128_S512x128))
    (broadcast S512x128 (Scalar.ofBits .f32 0x00000000#32))) bitsLt_bf16_f32

/-- The scaled scores: query rows against key rows, times one eighth. -/
def sPay (q : FVec Ideal S512x128 .bf16) (k : FVec Ideal S2048x128 .bf16) : FVec Ideal S512x2048 .f32 :=
  mulf (matmul dot_S512x128_S2048x128_S512x2048_1_1_0_0_n_n none q k (constant S512x2048 .f32 0x00000000#32))
    (broadcast S512x2048 (Scalar.ofBits .f32 0x3E000000#32))

/-- Each row's maximum, broadcast back over the row. -/
def mPay (s : FVec Ideal S512x2048 .f32) : FVec Ideal S512x2048 .f32 :=
  broadcastTo S512x2048 (shapeCast S512x1 (multiReduction .maximumf [1] S512 s 0xFF800000#32 reduces_S512x2048_S512 (.inl rfl) rfl) shapeCasts_S512_S512x1) broadcasts_S512x1_S512x2048

/-- The shifted exponentials. -/
def ePay (s : FVec Ideal S512x2048 .f32) : FVec Ideal S512x2048 .f32 := exp (subf s (mPay s))

/-- The weights: each exponential over its row's sum. -/
def wPay (e : FVec Ideal S512x2048 .f32) : FVec Ideal S512x2048 .bf16 :=
  truncf .bf16 (divf e (broadcastTo S512x2048 (shapeCast S512x1 (multiReduction .add [1] S512 e 0x00000000#32 reduces_S512x2048_S512 (.inl rfl) rfl) shapeCasts_S512_S512x1) broadcasts_S512x1_S512x2048)) bitsLt_bf16_f32

/-- The body's tile is the weights times the value rows. -/
theorem pay5_stages (v6 : FVec Ideal S1x512x64 .f32) (v8 : FVec Ideal S64x128 .f32) (v10 : FVec Ideal S128 .f32)
    (v17 : FVec Ideal S2048x128 .bf16) (v31 : FVec Ideal S2048x128 .bf16) :
    k0_pay5 (F := Ideal) v6 v8 v10 v17 v31
      = matmul (φ₁ := .bf16) (φ₂ := .bf16) dot_S512x2048_S2048x128_S512x128_1_0_0_1_n_n none (wPay (ePay (sPay (qPay v6 v8 v10) v17))) v31 (constant S512x128 .f32 0x00000000#32) := rfl

theorem qPay_apply (v6 : FVec Ideal S1x512x64 .f32) (v8 : FVec Ideal S64x128 .f32) (v10 : FVec Ideal S128 .f32) (p : Fin 512) (d : Fin 128) :
    qPay v6 v8 v10 (ix2 p d) = projRow (fun c => v6 (ix3 (0 : Fin 1) p c)) v8 v10 d := by
  show max (matmul dot_S512x64_S64x128_S512x128_1_0_0_1_n_n none (shapeCast S512x64 v6 shapeCasts_S1x512x64_S512x64) v8 (constant S512x128 .f32 0x00000000#32) (ix2 p d)
    + broadcastTo S512x128 (shapeCast S1x128 v10 shapeCasts_S128_S1x128) broadcasts_S1x128_S512x128 (ix2 p d)) (Ideal.ofBits .f32 0x00000000#32) = _
  rw [dotProj512, broadcastTo_1b_ab_apply, shapeCast_a_1a_apply]
  unfold projRow
  simp only [shapeCast_1ab_ab_apply]

theorem sPay_apply (q : FVec Ideal S512x128 .bf16) (k : FVec Ideal S2048x128 .bf16) (p : Fin 512) (m : Fin 2048) :
    sPay q k (ix2 p m) = (∑ d : Fin 128, q (ix2 p d) * k (ix2 m d)) * Ideal.ofBits .f32 0x3E000000#32 := by
  show matmul dot_S512x128_S2048x128_S512x2048_1_1_0_0_n_n none q k (constant S512x2048 .f32 0x00000000#32) (ix2 p m) * Ideal.ofBits .f32 0x3E000000#32 = _
  rw [dotScore]

theorem mPay_apply (s : FVec Ideal S512x2048 .f32) (p : Fin 512) (m : Fin 2048) :
    mPay s (ix2 p m) = rowMax (fun k => s (ix2 p k)) := by
  unfold mPay
  refine (broadcastTo_col_apply _ _ p m).trans ?_
  refine (shapeCast_col_apply _ _ p (0 : Fin 1)).trans ?_
  exact laneMax_apply s reduces_S512x2048_S512 (.inl rfl) rfl p

theorem ePay_apply (s : FVec Ideal S512x2048 .f32) (p : Fin 512) (m : Fin 2048) :
    ePay s (ix2 p m) = Ideal.exp (s (ix2 p m) - rowMax (fun k => s (ix2 p k))) := by
  show Ideal.exp (s (ix2 p m) - mPay s (ix2 p m)) = _
  rw [mPay_apply]

theorem wPay_apply (e : FVec Ideal S512x2048 .f32) (p : Fin 512) (m : Fin 2048) :
    wPay e (ix2 p m) = Ideal.div (e (ix2 p m)) (∑ m' : Fin 2048, e (ix2 p m')) := by
  show Ideal.div (e (ix2 p m)) (broadcastTo S512x2048 (shapeCast S512x1 (multiReduction .add [1] S512 e 0x00000000#32 reduces_S512x2048_S512 (.inl rfl) rfl) shapeCasts_S512_S512x1) broadcasts_S512x1_S512x2048 (ix2 p m)) = _
  refine congrArg (Ideal.div (e (ix2 p m))) ?_
  refine (broadcastTo_col_apply _ _ p m).trans ?_
  refine (shapeCast_col_apply _ _ p (0 : Fin 1)).trans ?_
  exact laneSum_apply e reduces_S512x2048_S512 (.inl rfl) rfl p

/-- Row `p`, channel `d` of the body's tile: the specification's attention row of the query row (the projection of
    input row `p` of the tile), the key scratch's rows and the value scratch's rows. -/
theorem pay5_apply (v6 : FVec Ideal S1x512x64 .f32) (v8 : FVec Ideal S64x128 .f32) (v10 : FVec Ideal S128 .f32)
    (v17 : FVec Ideal S2048x128 .bf16) (v31 : FVec Ideal S2048x128 .bf16) (p : Fin 512) (d : Fin 128) :
    k0_pay5 (F := Ideal) v6 v8 v10 v17 v31 (ix2 p d)
      = attnRow (projRow (fun c => v6 (ix3 (0 : Fin 1) p c)) v8 v10) (fun m d' => v17 (ix2 m d')) (fun m d' => v31 (ix2 m d')) d := by
  rw [pay5_stages, dotMix]
  have hs : ∀ m : Fin 2048, sPay (qPay v6 v8 v10) v17 (ix2 p m)
      = scoreRow (projRow (fun c => v6 (ix3 (0 : Fin 1) p c)) v8 v10) (fun m d' => v17 (ix2 m d')) m := fun m => by
    rw [sPay_apply]
    unfold scoreRow
    simp only [qPay_apply]
  have he : ∀ m : Fin 2048, ePay (sPay (qPay v6 v8 v10) v17) (ix2 p m)
      = expRow (projRow (fun c => v6 (ix3 (0 : Fin 1) p c)) v8 v10) (fun m d' => v17 (ix2 m d')) m := fun m => by
    rw [ePay_apply]
    unfold expRow
    simp only [hs]
  unfold attnRow
  refine Finset.sum_congr rfl fun m _ => ?_
  rw [wPay_apply]
  simp only [he]

/-- The tile with its leading unit axis put back. -/
theorem pay1_apply (v32 : FVec Ideal S512x128 .f32) (u : Fin 1) (p : Fin 512) (d : Fin 128) :
    k0_pay1 (F := Ideal) v32 (ix3 u p d) = v32 (ix2 p d) := by
  unfold k0_pay1
  exact shapeCast_ab_1ab_apply v32 _ u p d

end Cert.KernelIdeal.AttnPayload

end
-- ==== Proof.KernelValue.lean ====
/-
  The kernel's result array, as one function of the argument arrays.

  The grid has 64 points: point `t` is query tile `t mod 4` of batch `t / 4`.  The key and value scratch buffers are
  filled at a batch's first tile and carried through its other three, so after every point of batch `b` they hold the
  projected key and value rows of batch `b` (by induction over the points, the step using that a point that is not
  a batch's first has its predecessor in the same batch).  Hence the tile written back at point `t` is rows
  `512 (t mod 4) …` of batch `t / 4` of the specification, and since those tiles cover the result array, the array
  after the run is the specification of the argument arrays.
-/
import proofs.«157915_j53687091200195_2_alg».proof.Proof.Gen.KernelIdeal.Value
import proofs.«157915_j53687091200195_2_alg».proof.Proof.KernelPieces
import proofs.«157915_j53687091200195_2_alg».proof.Proof.KernelPayload
import proofs.«157915_j53687091200195_2_alg».proof.Proof.AttnSpec
import Idealize.ShloMosaic.Lib.Pipeline.Value
import Idealize.ShloMosaic.Lib.ValueIdx

set_option maxRecDepth 16384

noncomputable section

namespace Cert.KernelIdeal.AttnValue

open Cert.KernelIdeal Cert.KernelIdeal.Gen Cert.KernelIdeal.AttnPieces Cert.KernelIdeal.AttnPayload
open Idealize.ShloMosaic Idealize.ShloMosaic.TcCoe Idealize.SL.Sem Idealize.ShloMosaic.ValueIdx Cert.AttnSpec
open Idealize.ShloMosaic.Pipeline (Dat)

variable (m : (ℓ : Loc nD τ sig) → Buf (Elt Ideal) ℓ) (ρ : Dev nD → PrngReg)

/-! ## The grid: batch and tile of a point, and the printed index maps -/

/-- The batch of point `n`. -/
def bat (n : ℕ) : Fin 16 := ⟨(n / 4) % 16, Nat.mod_lt _ (by decide)⟩

/-- Row `p` of point `n`'s query tile, as a row of the batch. -/
def row (n : ℕ) (p : Fin 512) : Fin 2048 := ⟨(512 * (n % 4) + p.val) % 2048, Nat.mod_lt _ (by decide)⟩

/-- A point that is not a batch's first has its predecessor in the same batch. -/
theorem bat_succ {n : ℕ} (h : ¬(n + 1) % 4 = 0) : bat (n + 1) = bat n :=
  Fin.ext (by show ((n + 1) / 4) % 16 = (n / 4) % 16; have : (n + 1) / 4 = n / 4 := by omega
              rw [this])

/-- The printed index maps and the tile coordinate, at a point `t`. -/
structure IdxFacts (t : Fin cfg0.N) : Prop where
  w0_0 : win0_0.index t (0 : Fin 3) = t.val / 4
  w0_1 : win0_0.index t (1 : Fin 3) = 0
  w0_2 : win0_0.index t (2 : Fin 3) = 0
  w1_0 : win0_1.index t (0 : Fin 2) = 0
  w1_1 : win0_1.index t (1 : Fin 2) = 0
  w2_0 : win0_2.index t (0 : Fin 1) = 0
  w3_0 : win0_3.index t (0 : Fin 2) = 0
  w3_1 : win0_3.index t (1 : Fin 2) = 0
  w4_0 : win0_4.index t (0 : Fin 1) = 0
  w5_0 : win0_5.index t (0 : Fin 2) = 0
  w5_1 : win0_5.index t (1 : Fin 2) = 0
  w6_0 : win0_6.index t (0 : Fin 1) = 0
  w7_0 : win0_7.index t (0 : Fin 3) = t.val / 4
  w7_1 : win0_7.index t (1 : Fin 3) = t.val % 4
  w7_2 : win0_7.index t (2 : Fin 3) = 0
  tileNo : (grid0.coords t 1).val = t.val % 4

/-- Decided once over the 64 points. -/
theorem idx_facts_raw : ∀ t : Fin cfg0.N,
    win0_0.index t (0 : Fin 3) = t.val / 4 ∧ win0_0.index t (1 : Fin 3) = 0 ∧ win0_0.index t (2 : Fin 3) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (0 : Fin 3) = t.val / 4 ∧ win0_7.index t (1 : Fin 3) = t.val % 4 ∧ win0_7.index t (2 : Fin 3) = 0
    ∧ (grid0.coords t 1).val = t.val % 4 :=
  (by decide +kernel : ∀ t : Fin grid0.N, _)

theorem idx_facts (t : Fin cfg0.N) : IdxFacts t := by
  obtain ⟨a0, a1, a2, b0, b1, c0, d0, d1, e0, f0, f1, g0, h0, h1, h2, k⟩ := idx_facts_raw t
  exact ⟨a0, a1, a2, b0, b1, c0, d0, d1, e0, f0, f1, g0, h0, h1, h2, k⟩

theorem lt64 (t : Fin cfg0.N) : t.val < 64 := lt_of_lt_of_eq t.isLt N_0

/-! ## The input blocks, read off the argument arrays -/

/-- Window 0's block at point `t` is batch `t / 4` of `x`, whole. -/
theorem blk0_read (c : Dev nD) (t : Fin cfg0.N) :
    (iblk m c 0 t : Vec Ideal S1x2048x64 .f32) = fun y => V m c main_arg0 (ix3 (bat t.val) (y 1) (y 2)) := by
  funext y
  unfold iblk
  rw [View.read_apply]
  show V m c main_arg0 _ = V m c main_arg0 _
  refine congrArg (V m c main_arg0) (funext fun a => Fin.ext ?_)
  have hf := idx_facts t
  have ht := lt64 t
  have e0 : win0_0.index t (0 : Fin 3) = t.val / 4 := hf.w0_0
  have e1 : win0_0.index t (1 : Fin 3) = 0 := hf.w0_1
  have e2 : win0_0.index t (2 : Fin 3) = 0 := hf.w0_2
  have y0 : (y 0).val < 1 := (y 0).isLt
  match a with
  | ⟨0, _⟩ => show win0_0.index t (0 : Fin 3) * 1 + 1 * (y 0).val = (t.val / 4) % 16; rw [e0]; omega
  | ⟨1, _⟩ => show win0_0.index t (1 : Fin 3) * 2048 + 1 * (y 1).val = (y 1).val; rw [e1]; omega
  | ⟨2, _⟩ => show win0_0.index t (2 : Fin 3) * 64 + 1 * (y 2).val = (y 2).val; rw [e2]; omega

/-- Window 1's block at every point is its whole array. -/
theorem blk1_read (c : Dev nD) (t : Fin cfg0.N) : (iblk m c 1 t : Vec Ideal S64x128 .f32) = V m c main_arg1 := by
  funext y
  unfold iblk
  rw [View.read_apply]
  show V m c main_arg1 _ = V m c main_arg1 y
  refine congrArg (V m c main_arg1) (funext fun a => Fin.ext ?_)
  have hf := idx_facts t
  have h1_0 : win0_1.index t (0 : Fin 2) = 0 := hf.w1_0
  have h1_1 : win0_1.index t (1 : Fin 2) = 0 := hf.w1_1
  match a with
    | ⟨0, _⟩ => show win0_1.index t (0 : Fin 2) * 64 + 1 * (y 0).val = (y 0).val; rw [h1_0]; omega
    | ⟨1, _⟩ => show win0_1.index t (1 : Fin 2) * 128 + 1 * (y 1).val = (y 1).val; rw [h1_1]; omega

/-- Window 2's block at every point is its whole array. -/
theorem blk2_read (c : Dev nD) (t : Fin cfg0.N) : (iblk m c 2 t : Vec Ideal S128 .f32) = V m c main_arg2 := by
  funext y
  unfold iblk
  rw [View.read_apply]
  show V m c main_arg2 _ = V m c main_arg2 y
  refine congrArg (V m c main_arg2) (funext fun a => Fin.ext ?_)
  have hf := idx_facts t
  have h2_0 : win0_2.index t (0 : Fin 1) = 0 := hf.w2_0
  match a with
    | ⟨0, _⟩ => show win0_2.index t (0 : Fin 1) * 128 + 1 * (y 0).val = (y 0).val; rw [h2_0]; omega

/-- Window 3's block at every point is its whole array. -/
theorem blk3_read (c : Dev nD) (t : Fin cfg0.N) : (iblk m c 3 t : Vec Ideal S64x128 .f32) = V m c main_arg3 := by
  funext y
  unfold iblk
  rw [View.read_apply]
  show V m c main_arg3 _ = V m c main_arg3 y
  refine congrArg (V m c main_arg3) (funext fun a => Fin.ext ?_)
  have hf := idx_facts t
  have h3_0 : win0_3.index t (0 : Fin 2) = 0 := hf.w3_0
  have h3_1 : win0_3.index t (1 : Fin 2) = 0 := hf.w3_1
  match a with
    | ⟨0, _⟩ => show win0_3.index t (0 : Fin 2) * 64 + 1 * (y 0).val = (y 0).val; rw [h3_0]; omega
    | ⟨1, _⟩ => show win0_3.index t (1 : Fin 2) * 128 + 1 * (y 1).val = (y 1).val; rw [h3_1]; omega

/-- Window 4's block at every point is its whole array. -/
theorem blk4_read (c : Dev nD) (t : Fin cfg0.N) : (iblk m c 4 t : Vec Ideal S128 .f32) = V m c main_arg4 := by
  funext y
  unfold iblk
  rw [View.read_apply]
  show V m c main_arg4 _ = V m c main_arg4 y
  refine congrArg (V m c main_arg4) (funext fun a => Fin.ext ?_)
  have hf := idx_facts t
  have h4_0 : win0_4.index t (0 : Fin 1) = 0 := hf.w4_0
  match a with
    | ⟨0, _⟩ => show win0_4.index t (0 : Fin 1) * 128 + 1 * (y 0).val = (y 0).val; rw [h4_0]; omega

/-- Window 5's block at every point is its whole array. -/
theorem blk5_read (c : Dev nD) (t : Fin cfg0.N) : (iblk m c 5 t : Vec Ideal S64x128 .f32) = V m c main_arg5 := by
  funext y
  unfold iblk
  rw [View.read_apply]
  show V m c main_arg5 _ = V m c main_arg5 y
  refine congrArg (V m c main_arg5) (funext fun a => Fin.ext ?_)
  have hf := idx_facts t
  have h5_0 : win0_5.index t (0 : Fin 2) = 0 := hf.w5_0
  have h5_1 : win0_5.index t (1 : Fin 2) = 0 := hf.w5_1
  match a with
    | ⟨0, _⟩ => show win0_5.index t (0 : Fin 2) * 64 + 1 * (y 0).val = (y 0).val; rw [h5_0]; omega
    | ⟨1, _⟩ => show win0_5.index t (1 : Fin 2) * 128 + 1 * (y 1).val = (y 1).val; rw [h5_1]; omega

/-- Window 6's block at every point is its whole array. -/
theorem blk6_read (c : Dev nD) (t : Fin cfg0.N) : (iblk m c 6 t : Vec Ideal S128 .f32) = V m c main_arg6 := by
  funext y
  unfold iblk
  rw [View.read_apply]
  show V m c main_arg6 _ = V m c main_arg6 y
  refine congrArg (V m c main_arg6) (funext fun a => Fin.ext ?_)
  have hf := idx_facts t
  have h6_0 : win0_6.index t (0 : Fin 1) = 0 := hf.w6_0
  match a with
    | ⟨0, _⟩ => show win0_6.index t (0 : Fin 1) * 128 + 1 * (y 0).val = (y 0).val; rw [h6_0]; omega

/-- The 512 input rows of point `t`'s tile, read off a batch row `x0`: rows `512 (t mod 4) + p`. -/
theorem tile_read (t : Fin cfg0.N) (x0 : Vec Ideal S1x2048x64 .f32) (u : Fin 1) (p : Fin 512) (cc : Fin 64) :
    tile (grid0.coords t) x0 (ix3 u p cc) = x0 (ix3 (0 : Fin 1) (row t.val p) cc) := by
  show x0 _ = x0 _
  refine congrArg x0 (funext fun a => Fin.ext ?_)
  have hk : (grid0.coords t 1).val = t.val % 4 := (idx_facts t).tileNo
  have ho := k0_off1_eq (grid0.coords t)
  have hu : u.val = 0 := by omega
  have hp := p.isLt
  match a with
  | ⟨0, _⟩ => show k0_off1 (grid0.coords t) (0 : Fin 3) + 1 * u.val = 0; rw [ho]; show 0 + 1 * u.val = 0; omega
  | ⟨1, _⟩ => show k0_off1 (grid0.coords t) (1 : Fin 3) + 1 * p.val = (512 * (t.val % 4) + p.val) % 2048; rw [ho]
              show 512 * (grid0.coords t 1).val + 1 * p.val = _; rw [hk]; omega
  | ⟨2, _⟩ => show k0_off1 (grid0.coords t) (2 : Fin 3) + 1 * cc.val = cc.val; rw [ho]; show 0 + 1 * cc.val = cc.val; omega

/-! ## What the scratch buffers hold after every point -/

/-- The projected key rows of the batch of point `n`. -/
def Kscr (c : Dev nD) (n : ℕ) : Vec Ideal S2048x128 .bf16 :=
  fun j => projRow (xrow (V m c main_arg0) (bat n) (j 0)) (V m c main_arg3) (V m c main_arg4) (j 1)

/-- The projected value rows of the batch of point `n`. -/
def Vscr (c : Dev nD) (n : ℕ) : Vec Ideal S2048x128 .bf16 :=
  fun j => projRow (xrow (V m c main_arg0) (bat n) (j 0)) (V m c main_arg5) (V m c main_arg6) (j 1)

/-- The key payload of point `t`'s batch row is the projected key rows of its batch. -/
theorem kpay_eq (c : Dev nD) (t : Fin cfg0.N) :
    k0_pay3 (F := Ideal) (iblk m c 0 t) (iblk m c 3 t) (iblk m c 4 t) = Kscr m c t.val := by
  rw [blk0_read m c t, blk3_read m c t, blk4_read m c t]
  funext j
  obtain ⟨p, d, rfl⟩ : ∃ (p : Fin 2048) (d : Fin 128), j = ix2 p d := ⟨j 0, j 1, eq_ix2 j⟩
  rw [pay3_apply]
  rfl

/-- The value payload of point `t`'s batch row is the projected value rows of its batch. -/
theorem vpay_eq (c : Dev nD) (t : Fin cfg0.N) :
    k0_pay4 (F := Ideal) (iblk m c 0 t) (iblk m c 5 t) (iblk m c 6 t) = Vscr m c t.val := by
  rw [blk0_read m c t, blk5_read m c t, blk6_read m c t]
  funext j
  obtain ⟨p, d, rfl⟩ : ∃ (p : Fin 2048) (d : Fin 128), j = ix2 p d := ⟨j 0, j 1, eq_ix2 j⟩
  rw [pay4_apply]
  rfl

/-- At a batch's first tile the scratch is filled with the batch's projected rows. -/
theorem scr_first (c : Dev nD) (n : ℕ) (h : n < cfg0.N) (h0 : n % 4 = 0) :
    (outsAt0 m c n h).2.1 = Kscr m c n ∧ (outsAt0 m c n h).2.2 = Vscr m c n := by
  rw [outsAt0_A m c ⟨n, h⟩ h0]
  dsimp only
  exact ⟨(sout_A_0 (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) (ms0_5 ⟨n, h⟩) (hs0_5 ⟨n, h⟩) (ms0_6 ⟨n, h⟩) (hs0_6 ⟨n, h⟩) (ms0_7 ⟨n, h⟩) (hs0_7 ⟨n, h⟩) scM0_0 (Memref.isWhole_whole _) scM0_1 (Memref.isWhole_whole _) ((hcond0_0 ⟨n, h⟩).mpr h0) (iblk m c 0 ⟨n, h⟩) (iblk m c 1 ⟨n, h⟩) (iblk m c 2 ⟨n, h⟩) (iblk m c 3 ⟨n, h⟩) (iblk m c 4 ⟨n, h⟩) (iblk m c 5 ⟨n, h⟩) (iblk m c 6 ⟨n, h⟩)).trans (kpay_eq m c ⟨n, h⟩),
    (sout_A_1 (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) (ms0_5 ⟨n, h⟩) (hs0_5 ⟨n, h⟩) (ms0_6 ⟨n, h⟩) (hs0_6 ⟨n, h⟩) (ms0_7 ⟨n, h⟩) (hs0_7 ⟨n, h⟩) scM0_0 (Memref.isWhole_whole _) scM0_1 (Memref.isWhole_whole _) ((hcond0_0 ⟨n, h⟩).mpr h0) (iblk m c 0 ⟨n, h⟩) (iblk m c 1 ⟨n, h⟩) (iblk m c 2 ⟨n, h⟩) (iblk m c 3 ⟨n, h⟩) (iblk m c 4 ⟨n, h⟩) (iblk m c 5 ⟨n, h⟩) (iblk m c 6 ⟨n, h⟩)).trans (vpay_eq m c ⟨n, h⟩)⟩

/-- After EVERY point the scratch buffers hold the projected key and value rows of the point's batch. -/
theorem scr_eq (c : Dev nD) : ∀ (n : ℕ) (h : n < cfg0.N),
    (outsAt0 m c n h).2.1 = Kscr m c n ∧ (outsAt0 m c n h).2.2 = Vscr m c n
  | 0, h => scr_first m c 0 h rfl
  | n + 1, h => by
    by_cases h0 : (n + 1) % 4 = 0
    · exact scr_first m c (n + 1) h h0
    · have ih := scr_eq c n (Nat.lt_of_succ_lt h)
      have eK : Kscr m c (n + 1) = Kscr m c n := by unfold Kscr; rw [bat_succ h0]
      have eV : Vscr m c (n + 1) = Vscr m c n := by unfold Vscr; rw [bat_succ h0]
      rw [outsAt0_B m c ⟨n + 1, h⟩ h0]
      dsimp only
      unfold sout0_B_0 sout0_B_1
      rw [eK, eV]
      exact ih

/-! ## The tile written back at every point -/

/-- The tile computed from the batch's projected rows is the specification's rows `512 (t mod 4) …` of batch `t / 4`. -/
theorem tile_out (c : Dev nD) (t : Fin cfg0.N) (u : Fin 1) (p : Fin 512) (d : Fin 128) :
    k0_pay1 (F := Ideal) (k0_pay5 (tile (grid0.coords t) (iblk m c 0 t)) (iblk m c 1 t) (iblk m c 2 t) (Kscr m c t.val) (Vscr m c t.val)) (ix3 u p d)
      = attnAt (V m c main_arg0) (V m c main_arg1) (V m c main_arg2) (V m c main_arg3) (V m c main_arg4) (V m c main_arg5) (V m c main_arg6) (bat t.val) (row t.val p) d := by
  rw [blk0_read m c t, blk1_read m c t, blk2_read m c t, pay1_apply, pay5_apply]
  have hq : (fun cc : Fin 64 => tile (grid0.coords t) (fun y => V m c main_arg0 (ix3 (bat t.val) (y 1) (y 2))) (ix3 (0 : Fin 1) p cc))
      = xrow (V m c main_arg0) (bat t.val) (row t.val p) := funext fun cc => tile_read t _ (0 : Fin 1) p cc
  rw [hq]
  rfl

/-- What the output's staging buffer holds after point `t`. -/
theorem out_eq (c : Dev nD) (t : Fin cfg0.N) (u : Fin 1) (p : Fin 512) (d : Fin 128) :
    (outsAt0 m c t.val t.isLt).1 (ix3 u p d) = attnAt (V m c main_arg0) (V m c main_arg1) (V m c main_arg2) (V m c main_arg3) (V m c main_arg4) (V m c main_arg5) (V m c main_arg6) (bat t.val) (row t.val p) d := by
  by_cases h0 : t.val % 4 = 0
  · rw [outsAt0_A m c t h0]
    dsimp only
    rw [out_A_7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t), kpay_eq m c t, vpay_eq m c t]
    exact tile_out m c t u p d
  · have hpos : 0 < t.val := Nat.pos_of_ne_zero fun h => h0 (by rw [h])
    obtain ⟨k, hk⟩ : ∃ k, t.val = k + 1 := ⟨t.val - 1, by omega⟩
    have hB : ¬(k + 1) % 4 = 0 := hk ▸ h0
    have hprev := scr_eq m c (t.val - 1) (Nat.lt_of_le_of_lt (Nat.sub_le _ _) t.isLt)
    have eK : Kscr m c (t.val - 1) = Kscr m c t.val := by
      unfold Kscr; rw [hk, Nat.add_sub_cancel, bat_succ hB]
    have eV : Vscr m c (t.val - 1) = Vscr m c t.val := by
      unfold Vscr; rw [hk, Nat.add_sub_cancel, bat_succ hB]
    rw [outsAt0_B m c t h0]
    dsimp only
    rw [out_B_7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (iblk m c 6 t) _ _, hprev.1, hprev.2, eK, eV]
    exact tile_out m c t u p d

/-! ## From tiles to the array -/

/-- The specification of the argument arrays as the region finds them. -/
abbrev G (c : Dev nD) : S16x2048x128.Idx → Elt Ideal .f32 := attn (V m c main_arg0) (V m c main_arg1) (V m c main_arg2) (V m c main_arg3) (V m c main_arg4) (V m c main_arg5) (V m c main_arg6)

/-- WHAT POINT `t` WRITES BACK is tile `t` of the specification. -/
theorem flushed_eq (c : Dev nD) (t : Fin cfg0.N) :
    (dats m 0 c).flushed 7 t = ((cfg0.win 7).blk t).view.read (Elt Ideal) (G m c) := by
  rw [Value.flushed7]
  funext j
  obtain ⟨u, p, d, rfl⟩ : ∃ (u : Fin 1) (p : Fin 512) (d : Fin 128), j = ix3 u p d := ⟨j 0, j 1, j 2, eq_ix3 j⟩
  show (outsAt0 m c t.val t.isLt).1 (ix3 u p d) = G m c (((cfg0.win 7).blk t).view.emb (ix3 u p d))
  rw [out_eq m c t u p d]
  have hf := idx_facts t
  have ht := lt64 t
  have e0 : win0_7.index t (0 : Fin 3) = t.val / 4 := hf.w7_0
  have e1 : win0_7.index t (1 : Fin 3) = t.val % 4 := hf.w7_1
  have e2 : win0_7.index t (2 : Fin 3) = 0 := hf.w7_2
  have hu : u.val = 0 := by omega
  have hp := p.isLt
  have he : ((cfg0.win 7).blk t).view.emb (ix3 u p d) = ix3 (bat t.val) (row t.val p) d := funext fun a => Fin.ext (by
    match a with
    | ⟨0, _⟩ => show win0_7.index t (0 : Fin 3) * 1 + 1 * u.val = (t.val / 4) % 16; rw [e0]; omega
    | ⟨1, _⟩ => show win0_7.index t (1 : Fin 3) * 512 + 1 * p.val = (512 * (t.val % 4) + p.val) % 2048; rw [e1]; omega
    | ⟨2, _⟩ => show win0_7.index t (2 : Fin 3) * 128 + 1 * d.val = d.val; rw [e2]; omega)
  rw [he]
  rfl

/-- An index of the array is in point `t`'s tile iff each coordinate is in the tile's range on its axis. -/
theorem mem_blk (t : Fin cfg0.N) (i : S16x2048x128.Idx) :
    i ∈ ((cfg0.win 7).blk t).view.set ↔ ∀ a : Fin 3, win0_7.index t a * S1x512x128.size a ≤ (i a).val ∧ (i a).val < win0_7.index t a * S1x512x128.size a + S1x512x128.size a := by
  show i ∈ ((View.whole main_v0).slice (win0_7.rect t)).set ↔ _
  rw [View.set_slice_whole, Rect.mem_set_unit]
  exact Iff.rfl

/-- Every index of the result array is in the tile of the point `4 · batch + row / 512`. -/
theorem cover (i : S16x2048x128.Idx) : ∃ t : Fin cfg0.N, (cfg0.win 7).flush t = true ∧ i ∈ ((cfg0.win 7).blk t).view.set := by
  have hi0 : (i 0).val < 16 := (i 0).isLt
  have hi1 : (i 1).val < 2048 := (i 1).isLt
  have hi2 : (i 2).val < 128 := (i 2).isLt
  have hN : cfg0.N = 64 := N_0
  refine ⟨⟨4 * (i 0).val + (i 1).val / 512, by rw [hN]; omega⟩, flush0_7 _, ?_⟩
  rw [mem_blk]
  have hf := idx_facts ⟨4 * (i 0).val + (i 1).val / 512, by rw [hN]; omega⟩
  have e0 := hf.w7_0
  have e1 := hf.w7_1
  have e2 := hf.w7_2
  dsimp only at e0 e1 e2
  intro a
  match a with
  | ⟨0, _⟩ => show win0_7.index _ (0 : Fin 3) * 1 ≤ (i 0).val ∧ (i 0).val < win0_7.index _ (0 : Fin 3) * 1 + 1; rw [e0]; omega
  | ⟨1, _⟩ => show win0_7.index _ (1 : Fin 3) * 512 ≤ (i 1).val ∧ (i 1).val < win0_7.index _ (1 : Fin 3) * 512 + 512; rw [e1]; omega
  | ⟨2, _⟩ => show win0_7.index _ (2 : Fin 3) * 128 ≤ (i 2).val ∧ (i 2).val < win0_7.index _ (2 : Fin 3) * 128 + 128; rw [e2]; omega

/-- THE ARRAY after the run is the specification of the argument arrays. -/
theorem final (c : Dev nD) : (dats m 0 c).arrAt 7 cfg0.N = G m c :=
  (dats m 0 c).arrAt_eq_of_cover 7 (G m c) (fun t _ => flushed_eq m c t) cover

/-! ## The run, read -/

/-- Every weakly fair execution terminates with the result array at the specification of the arguments, which end
    unchanged. -/
theorem run : θ_run defs (onTc (τ := τ) (main (F := Ideal))) ⟨m, fun _ => 0, ρ⟩ fun r => ∀ c : Dev nD,
      r.2.mem ((c : Thread nD τ).loc main_v0) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (Value.run_blocks m ρ)

end Cert.KernelIdeal.AttnValue

end
-- ==== Proof.AttnConsts.lean ====
/-
  The float constants the two programs spell, as the extended reals their patterns denote, and the one
  scalar law in which they meet: dividing by the square root of 64 is multiplying by one eighth,
  on every extended real (infinities included), because the square root of 64 is exactly 8.
-/
import Idealize.ShloMosaic.PureOps.Ideal

noncomputable section

namespace Cert.AttnConsts

open Idealize.ShloMosaic

/-- The word for `64.0` denotes the real number 64. -/
theorem ofBits_64 : Ideal.ofBits .f32 0x42800000#32 = ((64 : ℝ) : EReal) := by
  simp [Ideal.ofBits, Ideal.ieee, -EReal.coe_mul]; norm_num

/-- The word for `0.125` denotes the real number 1/8. -/
theorem ofBits_eighth : Ideal.ofBits .f32 0x3E000000#32 = ((1 / 8 : ℝ) : EReal) := by
  simp [Ideal.ofBits, Ideal.ieee, -EReal.coe_mul]; norm_num

/-- The word for `+0.0` denotes 0. -/
theorem ofBits_zero : Ideal.ofBits .f32 0x00000000#32 = 0 := by
  simp [Ideal.ofBits, Ideal.ieee]

/-- The word `0xFF800000` denotes the bottom element, so a maximum with it on the left is the other argument. -/
theorem max_negInf (y : EReal) : max (Ideal.ofBits .f32 0xFF800000#32) y = y := by
  simp [Ideal.ofBits, Ideal.ieee]

/-- The square root of 64 is 8. -/
theorem sqrt_64 : Real.sqrt 64 = 8 := by
  rw [show (64 : ℝ) = 8 ^ 2 by norm_num]
  exact Real.sqrt_sq (by norm_num)

/-- Dividing by `sqrt 64` is multiplying by `1/8`, for every extended real. -/
theorem div_sqrt_64 (x : EReal) :
    Ideal.div x (Ideal.sqrt (Ideal.ofBits .f32 0x42800000#32)) = x * Ideal.ofBits .f32 0x3E000000#32 := by
  rw [ofBits_64, ofBits_eighth, Ideal.sqrt_coe, if_neg (by norm_num), sqrt_64]
  exact Ideal.div_coe (by norm_num) x

end Cert.AttnConsts

end
-- ==== Proof.RefIsSpec.lean ====
/-
  The reference program, one operation at a time, is the specification.

  Its three dense layers with ReLU are the specification's projected rows; its scores divide the query-key products by
  the square root of 64, which is the product with one eighth on every extended real; its softmax takes the row
  maximum as a host reduction from the bottom element, joined once more with the bottom element (the identity), the
  exponentials of the shifted scores, and their sum from zero; its last product mixes the value rows by the weights.
-/
import proofs.«157915_j53687091200195_2_alg».proof.Proof.Gen.ReferenceIdeal.Read
import proofs.«157915_j53687091200195_2_alg».proof.Proof.AttnSpec
import proofs.«157915_j53687091200195_2_alg».proof.Proof.AttnConsts
import proofs.«157915_j53687091200195_2_alg».proof.Proof.LibRowMax
import Idealize.ShloMosaic.Lib.ValueIdx

noncomputable section

namespace Cert.ReferenceIdeal.RefValue

open Cert.ReferenceIdeal Cert.ReferenceIdeal.Read Cert.ReferenceIdeal.Facts₀
open Idealize.ShloMosaic Idealize.ShloMosaic.ValueIdx Cert.AttnSpec Cert.AttnConsts Cert.RowMax

/-- The reference's projected rows: `max (x · W + bias) 0` at `(b, n, d)`. -/
theorem refQ (x0 : (⟨S16x2048x64, .f32⟩ : BufTy).Contents (Elt Ideal)) (x1 : (⟨S64x128, .f32⟩ : BufTy).Contents (Elt Ideal)) (x2 : (⟨S128, .f32⟩ : BufTy).Contents (Elt Ideal))
    (b : Fin 16) (n : Fin 2048) (d : Fin 128) :
    val_main_v4 (F := Ideal) x0 x1 x2 (ix3 b n d) = projRow (xrow x0 b n) x1 x2 d := by
  rw [val_main_v4_apply, val_main_v3_apply, val_main_v0_apply, val_main_v2_apply, val_main_v1_apply, val_main_call0_v0_apply, val_main_call0_cst_apply]
  have e1 : ∀ k : Fin 64, lidx_main_v0 (ix3 b n d) k = ix3 b n k := fun k => funext fun a => Fin.ext (by match a with | ⟨0, _⟩ => rfl | ⟨1, _⟩ => rfl | ⟨2, _⟩ => rfl)
  have e2 : ∀ k : Fin 64, ridx_main_v0 (ix3 b n d) k = ix2 k d := fun k => funext fun a => Fin.ext (by match a with | ⟨0, _⟩ => rfl | ⟨1, _⟩ => rfl)
  have e3 : idx_main_v1 (idx_main_v2 (ix3 b n d)) = ix1 d := funext fun a => Fin.ext (by match a with | ⟨0, _⟩ => rfl)
  simp only [e1, e2, e3]
  rfl

/-- The reference's projected rows: `max (x · W + bias) 0` at `(b, n, d)`. -/
theorem refK (x0 : (⟨S16x2048x64, .f32⟩ : BufTy).Contents (Elt Ideal)) (x3 : (⟨S64x128, .f32⟩ : BufTy).Contents (Elt Ideal)) (x4 : (⟨S128, .f32⟩ : BufTy).Contents (Elt Ideal))
    (b : Fin 16) (n : Fin 2048) (d : Fin 128) :
    val_main_v9 (F := Ideal) x0 x3 x4 (ix3 b n d) = projRow (xrow x0 b n) x3 x4 d := by
  rw [val_main_v9_apply, val_main_v8_apply, val_main_v5_apply, val_main_v7_apply, val_main_v6_apply, val_main_call1_v0_apply, val_main_call1_cst_apply]
  have e1 : ∀ k : Fin 64, lidx_main_v5 (ix3 b n d) k = ix3 b n k := fun k => funext fun a => Fin.ext (by match a with | ⟨0, _⟩ => rfl | ⟨1, _⟩ => rfl | ⟨2, _⟩ => rfl)
  have e2 : ∀ k : Fin 64, ridx_main_v5 (ix3 b n d) k = ix2 k d := fun k => funext fun a => Fin.ext (by match a with | ⟨0, _⟩ => rfl | ⟨1, _⟩ => rfl)
  have e3 : idx_main_v6 (idx_main_v7 (ix3 b n d)) = ix1 d := funext fun a => Fin.ext (by match a with | ⟨0, _⟩ => rfl)
  simp only [e1, e2, e3]
  rfl

/-- The reference's projected rows: `max (x · W + bias) 0` at `(b, n, d)`. -/
theorem refV (x0 : (⟨S16x2048x64, .f32⟩ : BufTy).Contents (Elt Ideal)) (x5 : (⟨S64x128, .f32⟩ : BufTy).Contents (Elt Ideal)) (x6 : (⟨S128, .f32⟩ : BufTy).Contents (Elt Ideal))
    (b : Fin 16) (n : Fin 2048) (d : Fin 128) :
    val_main_v14 (F := Ideal) x0 x5 x6 (ix3 b n d) = projRow (xrow x0 b n) x5 x6 d := by
  rw [val_main_v14_apply, val_main_v13_apply, val_main_v10_apply, val_main_v12_apply, val_main_v11_apply, val_main_call2_v0_apply, val_main_call2_cst_apply]
  have e1 : ∀ k : Fin 64, lidx_main_v10 (ix3 b n d) k = ix3 b n k := fun k => funext fun a => Fin.ext (by match a with | ⟨0, _⟩ => rfl | ⟨1, _⟩ => rfl | ⟨2, _⟩ => rfl)
  have e2 : ∀ k : Fin 64, ridx_main_v10 (ix3 b n d) k = ix2 k d := fun k => funext fun a => Fin.ext (by match a with | ⟨0, _⟩ => rfl | ⟨1, _⟩ => rfl)
  have e3 : idx_main_v11 (idx_main_v12 (ix3 b n d)) = ix1 d := funext fun a => Fin.ext (by match a with | ⟨0, _⟩ => rfl)
  simp only [e1, e2, e3]
  rfl

/-- The reference's scaled scores at `(b, n, m)`. -/
theorem refScore (x0 : (⟨S16x2048x64, .f32⟩ : BufTy).Contents (Elt Ideal)) (x1 : (⟨S64x128, .f32⟩ : BufTy).Contents (Elt Ideal)) (x2 : (⟨S128, .f32⟩ : BufTy).Contents (Elt Ideal)) (x3 : (⟨S64x128, .f32⟩ : BufTy).Contents (Elt Ideal)) (x4 : (⟨S128, .f32⟩ : BufTy).Contents (Elt Ideal)) (b : Fin 16) (n m : Fin 2048) :
    val_main_v18 (F := Ideal) x0 x1 x2 x3 x4 (ix3 b n m)
      = scoreRow (projRow (xrow x0 b n) x1 x2) (projRows x0 x3 x4 b) m := by
  rw [val_main_v18_apply, val_main_v16_apply, val_main_v17_apply, val_main_v15_apply, val_main_cst_apply]
  show Ideal.div (∑ k : Fin 128, val_main_v4 (F := Ideal) x0 x1 x2 (lidx_main_v16 (ix3 b n m) k) * val_main_v9 (F := Ideal) x0 x3 x4 (ridx_main_v16 (ix3 b n m) k))
    (Ideal.sqrt (Ideal.ofBits .f32 0x42800000#32)) = _
  rw [div_sqrt_64]
  have e1 : ∀ k : Fin 128, lidx_main_v16 (ix3 b n m) k = ix3 b n k := fun k => funext fun a => Fin.ext (by match a with | ⟨0, _⟩ => rfl | ⟨1, _⟩ => rfl | ⟨2, _⟩ => rfl)
  have e2 : ∀ k : Fin 128, ridx_main_v16 (ix3 b n m) k = ix3 b m k := fun k => funext fun a => Fin.ext (by match a with | ⟨0, _⟩ => rfl | ⟨1, _⟩ => rfl | ⟨2, _⟩ => rfl)
  unfold scoreRow
  simp only [e1, e2, refQ, refK]

/-- The reference's row maximum at `(b, n)`. -/
theorem refMax (x0 : (⟨S16x2048x64, .f32⟩ : BufTy).Contents (Elt Ideal)) (x1 : (⟨S64x128, .f32⟩ : BufTy).Contents (Elt Ideal)) (x2 : (⟨S128, .f32⟩ : BufTy).Contents (Elt Ideal)) (x3 : (⟨S64x128, .f32⟩ : BufTy).Contents (Elt Ideal)) (x4 : (⟨S128, .f32⟩ : BufTy).Contents (Elt Ideal)) (b : Fin 16) (n : Fin 2048) :
    val_main_v21 (F := Ideal) x0 x1 x2 x3 x4 (ix2 b n)
      = rowMax (scoreRow (projRow (xrow x0 b n) x1 x2) (projRows x0 x3 x4 b)) := by
  rw [val_main_v21_apply, val_main_v20_apply, val_main_cst_1_apply]
  show max (Ideal.ofBits .f32 0xFF800000#32) (val_main_v19 (F := Ideal) x0 x1 x2 x3 x4 (ix2 b n)) = _
  rw [max_negInf]
  unfold val_main_v19 rowMax
  refine (hostMax3_apply (val_main_v18 (F := Ideal) x0 x1 x2 x3 x4) (val_main_cst_0 (F := Ideal)) reducesTo_S16x2048x2048_S16x2048_d2 (by decide) h_S_ b n).trans ?_
  exact congrArg (fun f => Finset.fold max (Ideal.ofBits .f32 0xFF800000#32) f (Finset.univ : Finset (Fin 2048)))
    (funext fun k => refScore x0 x1 x2 x3 x4 b n k)

/-- The reference's shifted exponentials at `(b, n, m)`. -/
theorem refExp (x0 : (⟨S16x2048x64, .f32⟩ : BufTy).Contents (Elt Ideal)) (x1 : (⟨S64x128, .f32⟩ : BufTy).Contents (Elt Ideal)) (x2 : (⟨S128, .f32⟩ : BufTy).Contents (Elt Ideal)) (x3 : (⟨S64x128, .f32⟩ : BufTy).Contents (Elt Ideal)) (x4 : (⟨S128, .f32⟩ : BufTy).Contents (Elt Ideal)) (b : Fin 16) (n m : Fin 2048) :
    val_main_v25 (F := Ideal) x0 x1 x2 x3 x4 (ix3 b n m)
      = expRow (projRow (xrow x0 b n) x1 x2) (projRows x0 x3 x4 b) m := by
  rw [val_main_v25_apply, val_main_v24_apply, val_main_v23_apply, val_main_v22_apply]
  have e : idx_main_v22 (idx_main_v23 (ix3 b n m)) = ix2 b n := funext fun a => Fin.ext (by match a with | ⟨0, _⟩ => rfl | ⟨1, _⟩ => rfl)
  rw [e, refMax, refScore]
  rfl

/-- The reference's weights at `(b, n, m)`. -/
theorem refW (x0 : (⟨S16x2048x64, .f32⟩ : BufTy).Contents (Elt Ideal)) (x1 : (⟨S64x128, .f32⟩ : BufTy).Contents (Elt Ideal)) (x2 : (⟨S128, .f32⟩ : BufTy).Contents (Elt Ideal)) (x3 : (⟨S64x128, .f32⟩ : BufTy).Contents (Elt Ideal)) (x4 : (⟨S128, .f32⟩ : BufTy).Contents (Elt Ideal)) (b : Fin 16) (n m : Fin 2048) :
    val_main_v29 (F := Ideal) x0 x1 x2 x3 x4 (ix3 b n m)
      = Ideal.div (expRow (projRow (xrow x0 b n) x1 x2) (projRows x0 x3 x4 b) m)
          (∑ m' : Fin 2048, expRow (projRow (xrow x0 b n) x1 x2) (projRows x0 x3 x4 b) m') := by
  rw [val_main_v29_apply, val_main_v28_apply, val_main_v27_apply, val_main_v26_apply, val_main_cst_2_apply, refExp]
  have e : ∀ k : Fin 2048, idx_main_v26 (idx_main_v27 (idx_main_v28 (ix3 b n m))) k = ix3 b n k := fun k => funext fun a => Fin.ext (by match a with | ⟨0, _⟩ => rfl | ⟨1, _⟩ => rfl | ⟨2, _⟩ => rfl)
  simp only [e, refExp]
  show Ideal.div _ (Ideal.ofBits .f32 0x00000000#32 + _) = _
  rw [ofBits_zero, zero_add]

/-- The reference's result is the specification. -/
theorem ref_eq (x0 : (⟨S16x2048x64, .f32⟩ : BufTy).Contents (Elt Ideal)) (x1 : (⟨S64x128, .f32⟩ : BufTy).Contents (Elt Ideal)) (x2 : (⟨S128, .f32⟩ : BufTy).Contents (Elt Ideal)) (x3 : (⟨S64x128, .f32⟩ : BufTy).Contents (Elt Ideal)) (x4 : (⟨S128, .f32⟩ : BufTy).Contents (Elt Ideal)) (x5 : (⟨S64x128, .f32⟩ : BufTy).Contents (Elt Ideal)) (x6 : (⟨S128, .f32⟩ : BufTy).Contents (Elt Ideal)) :
    val_main_v30 (F := Ideal) x0 x1 x2 x3 x4 x5 x6 = attn x0 x1 x2 x3 x4 x5 x6 := by
  funext i
  obtain ⟨b, n, d, rfl⟩ : ∃ (b : Fin 16) (n : Fin 2048) (d : Fin 128), i = ix3 b n d := ⟨i 0, i 1, i 2, eq_ix3 i⟩
  rw [val_main_v30_apply, attn_ix3]
  have e1 : ∀ k : Fin 2048, lidx_main_v30 (ix3 b n d) k = ix3 b n k := fun k => funext fun a => Fin.ext (by match a with | ⟨0, _⟩ => rfl | ⟨1, _⟩ => rfl | ⟨2, _⟩ => rfl)
  have e2 : ∀ k : Fin 2048, ridx_main_v30 (ix3 b n d) k = ix3 b k d := fun k => funext fun a => Fin.ext (by match a with | ⟨0, _⟩ => rfl | ⟨1, _⟩ => rfl | ⟨2, _⟩ => rfl)
  unfold attnAt attnRow
  simp only [e1, e2, refW, refV]

end Cert.ReferenceIdeal.RefValue

end
-- ==== Proof.lean ====
/-
  Fused attention over ReLU-activated dense projections, against its plain reference, on the extended reals.

  Both programs compute, for batch `b`, query row `n` and channel `d`,
      out[b,n,d] = Σ_m softmax_m( Q[b,n,·]·K[b,m,·] · c ) · V[b,m,d],   Q, K, V = max (x·W + bias) 0,
  the kernel with the scale `c` spelt as the word for one eighth, the reference as a division by the square root
  of 64 — the same function of every extended real, since that square root is exactly 8.  The softmax is taken the
  same way on both sides (subtract the row maximum, exponentiate, divide by the row sum); a sum or a maximum over
  a row does not depend on the order it is taken in, and changes of float format are the identity.

  The kernel tiles the query rows by 512 and keeps the projected key and value rows of the current batch in two
  scratch buffers, filled at the batch's first tile: that they hold the batch's rows at every later tile is an
  induction over the grid's points.  The frames and the reference's run are the generated ones; the ideal pass
  rewrote nothing, so the idealization claim is trivial.  The precondition (finite inputs) is not used: no step of
  the comparison needs a law that fails at infinities.
-/
import proofs.«157915_j53687091200195_2_alg».proof.Defs
import proofs.«157915_j53687091200195_2_alg».proof.Proof.Gen.Kernel
import proofs.«157915_j53687091200195_2_alg».proof.Proof.Gen.Kernel.Skeleton
import proofs.«157915_j53687091200195_2_alg».proof.Proof.Gen.Kernel.Launch
import proofs.«157915_j53687091200195_2_alg».proof.Proof.Gen.Kernel.Points
import proofs.«157915_j53687091200195_2_alg».proof.Proof.Gen.Kernel.Frame
import proofs.«157915_j53687091200195_2_alg».proof.Proof.Gen.KernelIdeal
import proofs.«157915_j53687091200195_2_alg».proof.Proof.Gen.KernelIdeal.Skeleton
import proofs.«157915_j53687091200195_2_alg».proof.Proof.Gen.KernelIdeal.Launch
import proofs.«157915_j53687091200195_2_alg».proof.Proof.Gen.KernelIdeal.Points
import proofs.«157915_j53687091200195_2_alg».proof.Proof.Gen.KernelIdeal.Frame
import proofs.«157915_j53687091200195_2_alg».proof.Proof.Gen.ReferenceIdeal
import proofs.«157915_j53687091200195_2_alg».proof.Proof.Gen.Pre_finite_inputs
import proofs.«157915_j53687091200195_2_alg».proof.Proof.Gen.KernelIdeal.Value
import proofs.«157915_j53687091200195_2_alg».proof.Proof.Gen.ReferenceIdeal.Run
import proofs.«157915_j53687091200195_2_alg».proof.Proof.Gen.ReferenceIdeal.Read
import proofs.«157915_j53687091200195_2_alg».proof.Proof.KernelValue
import proofs.«157915_j53687091200195_2_alg».proof.Proof.RefIsSpec
import Idealize.ShloMosaic.Adequacy
import Idealize.ShloMosaic.Init

noncomputable section

namespace Cert.Proof

open Idealize.ShloMosaic Idealize.SL.Sem

/-- The word-level kernel runs and leaves its arguments unchanged. -/
theorem frame_k : Cert.frame_Kernel := fun m ρ _ => Cert.Kernel.Gen.frame m ρ

/-- So does the kernel read at the extended reals. -/
theorem frame_ki : Cert.frame_KernelIdeal := fun m ρ _ => Cert.KernelIdeal.Gen.frame m ρ

/-- The reference runs and leaves its arguments unchanged: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories agreeing on the arguments both programs end with the specification of those arguments in their
    result arrays: the kernel by its value run, the reference operation by operation. -/
theorem algebraic : Cert.algebraic_KernelIdeal_ReferenceIdeal := by
  intro m ρ m' ρ' _ hagree
  refine ⟨fun c => Cert.KernelIdeal.AttnValue.G m c, Cert.KernelIdeal.AttnValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v30_eq, Cert.ReferenceIdeal.RefValue.ref_eq,
    (hagree c).1, (hagree c).2.1, (hagree c).2.2.1, (hagree c).2.2.2.1, (hagree c).2.2.2.2.1, (hagree c).2.2.2.2.2.1,
    (hagree c).2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
